-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S1024x4096 : Shape := ⟨2, ![1024, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4x2048x1024 .f32) (main_arg1 : FVec F S4096x1024 .f32) (main_arg2 : FVec F S4096x1024 .f32) (main_arg3 : FVec F S1024x4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S4x2048x1024 : Shape := ⟨3, ![4, 2048, 1024]⟩
abbrev S4096x1024 : Shape := ⟨2, ![4096, 1024]⟩
abbrev S1024x4096 : Shape := ⟨2, ![1024, 4096]⟩
abbrev S8192x1024 : Shape := ⟨2, ![8192, 1024]⟩
abbrev S_ : Shape := ⟨0, ![]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 80
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S8192x1024, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1024x4096, .f32⟩
  | .hbm, ⟨52, _⟩ => ⟨S1024x4096, .bf16⟩
  | .hbm, ⟨53, _⟩ => ⟨S1024x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1024x4096, .f32⟩
  | .hbm, ⟨63, _⟩ => ⟨S1024x4096, .f32⟩
  | .hbm, ⟨64, _⟩ => ⟨S1024x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1024x4096, .f32⟩
  | .hbm, ⟨69, _⟩ => ⟨S1024x4096, .f32⟩
  | .hbm, ⟨70, _⟩ => ⟨S_, .f32⟩
  | .hbm, ⟨71, _⟩ => ⟨S1024x4096, .f32⟩
  | .hbm, ⟨72, _⟩ => ⟨S1024x4096, .f32⟩
  | .hbm, ⟨73, _⟩ => ⟨S1024x4096, .f32⟩
  | .hbm, ⟨74, _⟩ => ⟨S1024x4096, .f32⟩
  | .hbm, ⟨75, _⟩ => ⟨S4096x1024, .f32⟩
  | .hbm, ⟨76, _⟩ => ⟨S4096x1024, .bf16⟩
  | .hbm, ⟨77, _⟩ => ⟨S8192x4096, .bf16⟩
  | .hbm, ⟨78, _⟩ => ⟨S8192x1024, .f32⟩
  | .hbm, ⟨79, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1024x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_11 : Ref sig .tc := ⟨.hbm, 54, rfl⟩
abbrev main_v28 : Ref sig .tc := ⟨.hbm, 55, rfl⟩
abbrev main_cst_12 : Ref sig .tc := ⟨.hbm, 56, rfl⟩
abbrev main_v29 : Ref sig .tc := ⟨.hbm, 57, rfl⟩
abbrev main_cst_13 : Ref sig .tc := ⟨.hbm, 58, rfl⟩
abbrev main_v30 : Ref sig .tc := ⟨.hbm, 59, rfl⟩
abbrev main_cst_14 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_15 : Ref sig .tc := ⟨.hbm, 65, rfl⟩
abbrev main_cst_16 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x1024_S8192x1024 : S4x2048x1024.ShapeCasts S8192x1024
  reducesTo_S4096x1024_S_d0_1 : S4096x1024.ReducesTo [0, 1] S_
  h_S_ : 0 < S_.numel
  bcast_S_S4096x1024 : S_.BroadcastsInDim S4096x1024 (![] : Fin 0 → Fin S4096x1024.rank)
  transposes_S4096x1024_S1024x4096_1_0 : S4096x1024.Transposes [1, 0] S1024x4096
  bitsLt_bf16_f32 : FTy.bits .bf16 < FTy.bits .f32
  reducesTo_S1024x4096_S_d0_1 : S1024x4096.ReducesTo [0, 1] S_
  bcast_S_S1024x4096 : S_.BroadcastsInDim S1024x4096 (![] : Fin 0 → Fin S1024x4096.rank)
  transposes_S1024x4096_S4096x1024_1_0 : S1024x4096.Transposes [1, 0] S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  reduces_S256x4096_S256 : S256x4096.Reduces [1] S256
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .bf16 = 32 ∨ (Rect.block (s := S8192x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .f32 = 32 ∨ (Rect.block (s := S8192x1024) S256x1024.size (cc1_transform_2 i) (hinb1_2 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S1024x4096 : Shape := ⟨2, ![1024, 4096]⟩
abbrev S_ : Shape := ⟨0, ![]⟩
abbrev S4x2048 : Shape := ⟨2, ![4, 2048]⟩
abbrev S4x2048x1 : Shape := ⟨3, ![4, 2048, 1]⟩
abbrev S4x2048x4096 : Shape := ⟨3, ![4, 2048, 4096]⟩

abbrev nBuf : Space → Nat
  | .hbm => 170
  | .vmem => 0
  | .smem => 0
  | _ => 0

abbrev hbmTy0_0 (i : Nat) : BufTy := match i % 128 with
  | 0 => ⟨S4x2048x1024, .f32⟩
  | 1 => ⟨S4096x1024, .f32⟩
  | 2 => ⟨S4096x1024, .f32⟩
  | 3 => ⟨S1024x4096, .f32⟩
  | 4 => ⟨S4x2048x1024, .f32⟩
  | 5 => ⟨S_, .f32⟩
  | 6 => ⟨S4x2048, .f32⟩
  | 7 => ⟨S4x2048x1, .f32⟩
  | 8 => ⟨S_, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1024, .f32⟩
  | 16 => ⟨S4x2048x1024, .f32⟩
  | 17 => ⟨S4x2048x1024, .f32⟩
  | 18 => ⟨S_, .f32⟩
  | 19 => ⟨S_, .f32⟩
  | 20 => ⟨S_, .f32⟩
  | 21 => ⟨S4x2048x1024, .f32⟩
  | 22 => ⟨S4x2048x1024, .f32⟩
  | 23 => ⟨S_, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S4096x1024, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S_, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4x2048x4096, .f32⟩
  | 56 => ⟨S4x2048x4096, .f32⟩
  | 57 => ⟨S4x2048x4096, .f32⟩
  | 58 => ⟨S_, .f32⟩
  | 59 => ⟨S4x2048x4096, .f32⟩
  | 60 => ⟨S4x2048x4096, .f32⟩
  | 61 => ⟨S_, .f32⟩
  | 62 => ⟨S4x2048x4096, .f32⟩
  | 63 => ⟨S4x2048x4096, .f32⟩
  | 64 => ⟨S4x2048x4096, .f32⟩
  | 65 => ⟨S4x2048x1024, .f32⟩
  | 66 => ⟨S_, .f32⟩
  | 67 => ⟨S4x2048, .f32⟩
  | 68 => ⟨S4x2048x1, .f32⟩
  | 69 => ⟨S_, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1024, .f32⟩
  | 77 => ⟨S4x2048x1024, .f32⟩
  | 78 => ⟨S4x2048x1024, .f32⟩
  | 79 => ⟨S_, .f32⟩
  | 80 => ⟨S_, .f32⟩
  | 81 => ⟨S_, .f32⟩
  | 82 => ⟨S4x2048x1024, .f32⟩
  | 83 => ⟨S4x2048x1024, .f32⟩
  | 84 => ⟨S_, .f32⟩
  | 85 => ⟨S4x2048x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S4096x1024, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S4096x1024, .f32⟩
  | 102 => ⟨S4096x1024, .f32⟩
  | 103 => ⟨S4096x1024, .f32⟩
  | 104 => ⟨S_, .f32⟩
  | 105 => ⟨S_, .f32⟩
  | 106 => ⟨S_, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4x2048x4096, .f32⟩
  | 117 => ⟨S4x2048x4096, .f32⟩
  | 118 => ⟨S4x2048x4096, .f32⟩
  | 119 => ⟨S_, .f32⟩
  | 120 => ⟨S4x2048, .f32⟩
  | 121 => ⟨S4x2048x1, .f32⟩
  | 122 => ⟨S_, .f32⟩
  | 123 => ⟨S_, .f32⟩
  | 124 => ⟨S4x2048x1, .f32⟩
  | 125 => ⟨S4x2048x1, .f32⟩
  | 126 => ⟨S_, .f32⟩
  | 127 => ⟨S4x2048x1, .f32⟩
  | _ => ⟨S4x2048x1024, .f32⟩

abbrev hbmTy0_1 (i : Nat) : BufTy := match i % 128 with
  | 0 => ⟨S4x2048x1, .f32⟩
  | 1 => ⟨S4x2048x4096, .f32⟩
  | 2 => ⟨S4x2048x4096, .f32⟩
  | 3 => ⟨S4x2048x4096, .f32⟩
  | 4 => ⟨S_, .f32⟩
  | 5 => ⟨S_, .f32⟩
  | 6 => ⟨S_, .f32⟩
  | 7 => ⟨S4x2048x4096, .f32⟩
  | 8 => ⟨S4x2048x4096, .f32⟩
  | 9 => ⟨S_, .f32⟩
  | 10 => ⟨S4x2048x4096, .f32⟩
  | 11 => ⟨S4x2048x4096, .f32⟩
  | 12 => ⟨S4x2048x4096, .f32⟩
  | 13 => ⟨S4x2048x4096, .f32⟩
  | 14 => ⟨S4x2048x4096, .f32⟩
  | 15 => ⟨S4x2048x4096, .f32⟩
  | 16 => ⟨S1024x4096, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S1024x4096, .f32⟩
  | 27 => ⟨S1024x4096, .f32⟩
  | 28 => ⟨S1024x4096, .f32⟩
  | 29 => ⟨S_, .f32⟩
  | 30 => ⟨S_, .f32⟩
  | 31 => ⟨S_, .f32⟩
  | 32 => ⟨S1024x4096, .f32⟩
  | 33 => ⟨S1024x4096, .f32⟩
  | 34 => ⟨S_, .f32⟩
  | 35 => ⟨S1024x4096, .f32⟩
  | 36 => ⟨S1024x4096, .f32⟩
  | 37 => ⟨S1024x4096, .f32⟩
  | 38 => ⟨S1024x4096, .f32⟩
  | 39 => ⟨S1024x4096, .f32⟩
  | 40 => ⟨S1024x4096, .f32⟩
  | 41 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_cst_6 : Ref sig .tc := ⟨.hbm, 35, rfl⟩
abbrev main_call3_v0 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_cst_9 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call6_v0 : Ref sig .tc := ⟨.hbm, 56, rfl⟩
abbrev main_call6_v1 : Ref sig .tc := ⟨.hbm, 57, rfl⟩
abbrev main_call6_cst : Ref sig .tc := ⟨.hbm, 58, rfl⟩
abbrev main_call6_v2 : Ref sig .tc := ⟨.hbm, 59, rfl⟩
abbrev main_call6_v3 : Ref sig .tc := ⟨.hbm, 60, rfl⟩
abbrev main_call6_cst_0 : Ref sig .tc := ⟨.hbm, 61, rfl⟩
abbrev main_call6_v4 : Ref sig .tc := ⟨.hbm, 62, rfl⟩
abbrev main_call6_v5 : Ref sig .tc := ⟨.hbm, 63, rfl⟩
abbrev main_v28 : Ref sig .tc := ⟨.hbm, 64, rfl⟩
abbrev main_v29 : Ref sig .tc := ⟨.hbm, 65, rfl⟩
abbrev main_cst_10 : Ref sig .tc := ⟨.hbm, 66, rfl⟩
abbrev main_v30 : Ref sig .tc := ⟨.hbm, 67, rfl⟩
abbrev main_v31 : Ref sig .tc := ⟨.hbm, 68, rfl⟩
abbrev main_cst_11 : Ref sig .tc := ⟨.hbm, 69, rfl⟩
abbrev main_call7_v0 : Ref sig .tc := ⟨.hbm, 70, rfl⟩
abbrev main_call7_v1 : Ref sig .tc := ⟨.hbm, 71, rfl⟩
abbrev main_v32 : Ref sig .tc := ⟨.hbm, 72, rfl⟩
abbrev main_cst_12 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_13 : Ref sig .tc := ⟨.hbm, 79, rfl⟩
abbrev main_cst_14 : Ref sig .tc := ⟨.hbm, 80, rfl⟩
abbrev main_call9_v0 : Ref sig .tc := ⟨.hbm, 81, rfl⟩
abbrev main_call9_v1 : Ref sig .tc := ⟨.hbm, 82, rfl⟩
abbrev main_call9_v2 : Ref sig .tc := ⟨.hbm, 83, rfl⟩
abbrev main_call9_v3 : Ref sig .tc := ⟨.hbm, 84, rfl⟩
abbrev main_call9_v4 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_15 : Ref sig .tc := ⟨.hbm, 92, rfl⟩
abbrev main_v44 : Ref sig .tc := ⟨.hbm, 93, rfl⟩
abbrev main_cst_16 : Ref sig .tc := ⟨.hbm, 94, rfl⟩
abbrev main_v45 : Ref sig .tc := ⟨.hbm, 95, rfl⟩
abbrev main_cst_17 : Ref sig .tc := ⟨.hbm, 96, rfl⟩
abbrev main_call10_v0 : Ref sig .tc := ⟨.hbm, 97, rfl⟩
abbrev main_v46 : Ref sig .tc := ⟨.hbm, 98, rfl⟩
abbrev main_cst_18 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_19 : Ref sig .tc := ⟨.hbm, 104, rfl⟩
abbrev main_cst_20 : Ref sig .tc := ⟨.hbm, 105, rfl⟩
abbrev main_call12_v0 : Ref sig .tc := ⟨.hbm, 106, rfl⟩
abbrev main_call12_v1 : Ref sig .tc := ⟨.hbm, 107, rfl⟩
abbrev main_call12_v2 : Ref sig .tc := ⟨.hbm, 108, rfl⟩
abbrev main_call12_v3 : Ref sig .tc := ⟨.hbm, 109, rfl⟩
abbrev main_call12_v4 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_21 : Ref sig .tc := ⟨.hbm, 119, rfl⟩
abbrev main_v59 : Ref sig .tc := ⟨.hbm, 120, rfl⟩
abbrev main_v60 : Ref sig .tc := ⟨.hbm, 121, rfl⟩
abbrev main_cst_22 : Ref sig .tc := ⟨.hbm, 122, rfl⟩
abbrev main_call13_v0 : Ref sig .tc := ⟨.hbm, 123, rfl⟩
abbrev main_call13_v1 : Ref sig .tc := ⟨.hbm, 124, rfl⟩
abbrev main_v61 : Ref sig .tc := ⟨.hbm, 125, rfl⟩
abbrev main_cst_23 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_cst_25 : Ref sig .tc := ⟨.hbm, 133, rfl⟩
abbrev main_call15_v0 : Ref sig .tc := ⟨.hbm, 134, rfl⟩
abbrev main_call15_v1 : Ref sig .tc := ⟨.hbm, 135, rfl⟩
abbrev main_call15_v2 : Ref sig .tc := ⟨.hbm, 136, rfl⟩
abbrev main_call15_v3 : Ref sig .tc := ⟨.hbm, 137, rfl⟩
abbrev main_call15_v4 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_cst_26 : Ref sig .tc := ⟨.hbm, 145, rfl⟩
abbrev main_v73 : Ref sig .tc := ⟨.hbm, 146, rfl⟩
abbrev main_cst_27 : Ref sig .tc := ⟨.hbm, 147, rfl⟩
abbrev main_v74 : Ref sig .tc := ⟨.hbm, 148, rfl⟩
abbrev main_cst_28 : Ref sig .tc := ⟨.hbm, 149, rfl⟩
abbrev main_call16_v0 : Ref sig .tc := ⟨.hbm, 150, rfl⟩
abbrev main_v75 : Ref sig .tc := ⟨.hbm, 151, rfl⟩
abbrev main_cst_29 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_30 : Ref sig .tc := ⟨.hbm, 157, rfl⟩
abbrev main_cst_31 : Ref sig .tc := ⟨.hbm, 158, rfl⟩
abbrev main_call18_v0 : Ref sig .tc := ⟨.hbm, 159, rfl⟩
abbrev main_call18_v1 : Ref sig .tc := ⟨.hbm, 160, rfl⟩
abbrev main_call18_v2 : Ref sig .tc := ⟨.hbm, 161, rfl⟩
abbrev main_call18_v3 : Ref sig .tc := ⟨.hbm, 162, rfl⟩
abbrev main_call18_v4 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S_S4x2048x1024 : S_.BroadcastsInDim S4x2048x1024 (![] : Fin 0 → Fin S4x2048x1024.rank)
  reducesTo_S4096x1024_S_d0_1 : S4096x1024.ReducesTo [0, 1] S_
  bcast_S_S4096x1024 : S_.BroadcastsInDim S4096x1024 (![] : Fin 0 → Fin S4096x1024.rank)
  bcast_S_S4x2048x4096 : S_.BroadcastsInDim S4x2048x4096 (![] : Fin 0 → Fin S4x2048x4096.rank)
  reducesTo_S4x2048x4096_S4x2048_d2 : S4x2048x4096.ReducesTo [2] S4x2048
  bcast_S4x2048x1_S4x2048x4096_0_1_2 : S4x2048x1.BroadcastsInDim S4x2048x4096 (![0, 1, 2] : Fin 3 → Fin S4x2048x4096.rank)
  reducesTo_S1024x4096_S_d0_1 : S1024x4096.ReducesTo [0, 1] S_
  bcast_S_S1024x4096 : S_.BroadcastsInDim S1024x4096 (![] : Fin 0 → Fin S1024x4096.rank)
  dot_S4x2048x1024_S4096x1024_S4x2048x4096_2_1_01_0_n_n_wf : DotDims.WF S4x2048x1024 S4096x1024 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.KernelRun.lean ====
/-
  The kernel program's run with its result named: every weakly fair execution of @main terminates, nothing faulting,
  with the result buffer at what the last host stretch leaves there (the contents `W16` at the result's reference) and
  the four argument arrays as launched.  It is the launch of @main's segments — thirteen host stretches, the two
  kernel regions, one more host stretch — over the thread state "every unscoped buffer at the boundary's contents",
  read at the end against the final state at the result's buffer as well as at the arguments'.
-/
import proofs.«171611_j41403484733540_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result named. -/
theorem run_named : θ_run defs (onTc (τ := τ) (main (F := F))) ⟨m, fun _ => 0, ρ⟩ (fun r => ∀ c : Dev nD,
      r.2.mem ((c.tc : Thread nD τ).loc main_v42) = W16 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v42 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c)⟩)

end Cert.KernelIdeal.RunNamed

end
-- ==== Proof.Spec.lean ====
/-
  The mathematics both programs compute, on the extended reals, with no program imported.

  A feed-forward block on quantized operands.  Each weight matrix is quantized to three levels with ONE scale
  for the whole matrix (the reciprocal of its mean magnitude, bounded below); each row of activations is
  quantized to 8 bits with ONE scale per row (127 over the row's largest magnitude, bounded below).  A row `x` of the input goes to
      out c = ∑ j, Q(h) j * Wd c j,   h j = silu (∑ k, Q(x) k * Wg j k) * (∑ k, Q(x) k * Wu j k),
  where `Q` is the row quantization and `Wg`, `Wu`, `Wd` the quantized weights.
-/
import Idealize.ShloMosaic.PureOps.Ideal

noncomputable section

open scoped BigOperators

namespace Cert.Ffn

open Idealize.ShloMosaic

/-- The lower bound of every scale's divisor. -/
def eps : EReal := Ideal.ofBits .f32 0x3727C5AC#32
def c127 : EReal := Ideal.ofBits .f32 0x42FE0000#32
def cm128 : EReal := Ideal.ofBits .f32 0xC3000000#32
def cp1 : EReal := Ideal.ofBits .f32 0x3F800000#32
def cm1 : EReal := Ideal.ofBits .f32 0xBF800000#32
/-- The number of entries of a weight matrix, 4096 * 1024, as the float the mean divides by. -/
def cnum : EReal := Ideal.ofBits .f32 0x4A800000#32
def czero : EReal := Ideal.ofBits .f32 0x00000000#32
def ninf : EReal := Ideal.ofBits .f32 0xFF800000#32

/-- Rounding to the nearest integer, ties to even, the infinities fixed. -/
def rnd (v : EReal) : EReal := Ideal.liftRound Ideal.roundHalfEven v
/-- The magnitude. -/
def absE (v : EReal) : EReal := max v (-v)

/-- The sum of a matrix's magnitudes (from the float zero), over whatever type indexes its entries. -/
def wtot {I : Type} [Fintype I] (w : I → EReal) : EReal := czero + ∑ i, absE (w i)
/-- A weight matrix's scale: one over its mean magnitude, the mean bounded below by `eps`. -/
def wscale (tot : EReal) : EReal := Ideal.div cp1 (max (Ideal.div tot cnum) eps)
/-- One weight quantized to -1, 0 or 1 times the scale's reciprocal. -/
def q3 (s w : EReal) : EReal := Ideal.div (min cp1 (max cm1 (rnd (w * s)))) s

/-- A row's largest magnitude, folded from minus infinity. -/
def rowMax {K : Type} [Fintype K] (x : K → EReal) : EReal := Finset.univ.fold max ninf (fun k => absE (x k))
/-- A row's scale: 127 over its largest magnitude, that bounded below by `eps`. -/
def scale8 (amax : EReal) : EReal := Ideal.div c127 (max amax eps)
/-- One activation quantized to an integer of [-128, 127] times the scale's reciprocal. -/
def q8 (a v : EReal) : EReal := Ideal.div (min c127 (max cm128 (rnd (v * a)))) a
/-- A row quantized with its own scale. -/
def actq {K : Type} [Fintype K] (x : K → EReal) (k : K) : EReal := q8 (scale8 (rowMax x)) (x k)

/-- One hidden entry: silu of the gate product times the up product. -/
def hid {K : Type} [Fintype K] (xq wg wu : K → EReal) : EReal :=
  ((∑ k, xq k * wg k) * Ideal.logistic (∑ k, xq k * wg k)) * (∑ k, xq k * wu k)

/-- A row's hidden vector, from the row and the two quantized weight matrices (hidden index first). -/
def hrow {K J : Type} [Fintype K] (x : K → EReal) (Wg Wu : J → K → EReal) (j : J) : EReal :=
  hid (actq x) (Wg j) (Wu j)

/-- One output entry of a row. -/
def ffnRow {K J C : Type} [Fintype K] [Fintype J] (x : K → EReal) (Wg Wu : J → K → EReal) (Wd : C → J → EReal) (c : C) : EReal :=
  ∑ j, actq (hrow x Wg Wu) j * Wd c j

/-- An array's entry, as an extended real. -/
abbrev rd {s : Shape} (f : s.Idx → EReal) (i : s.Idx) : EReal := f i

/-- The whole result from the four arrays by coordinates: `x b s k`, `wg j k`, `wu j k`, `wd c j`, and the three
    matrices' magnitude totals. -/
def G (x : Fin 4 → Fin 2048 → Fin 1024 → EReal) (wg wu : Fin 4096 → Fin 1024 → EReal) (wd : Fin 1024 → Fin 4096 → EReal)
    (tg tu td : EReal) (b : Fin 4) (s : Fin 2048) (c : Fin 1024) : EReal :=
  ffnRow (x b s) (fun j k => q3 (wscale tg) (wg j k)) (fun j k => q3 (wscale tu) (wu j k)) (fun c j => q3 (wscale td) (wd c j)) c

end Cert.Ffn

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.KernelHost.lean ====
/-
  The kernel program's host side read at an entry: what the host operations before the first launch leave in the four
  arrays the launches read (the input as rows, and the three quantized weight matrices transposed), and the final
  reshape of the second launch's result.
-/
import proofs.«171611_j41403484733540_1_alg».proof.Proof.Gen.KernelIdeal.Frame
import proofs.«171611_j41403484733540_1_alg».proof.Proof.Spec
import proofs.«171611_j41403484733540_1_alg».proof.Proof.LibTypedRef
import Idealize.ShloMosaic.Lib.ValueIdx
import Idealize.ShloMosaic.Lib.Pipeline.Value
import Idealize.ShloMosaic.Lib.StableHlo.Run
import proofs.«171611_j41403484733540_1_alg».proof.Proof.LibHostLayout
import Idealize.ShloMosaic.Lib.ValueLayout
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.SL.Sem
open Idealize.ShloMosaic.ValueIdx Cert.Ffn

open Idealize.ShloMosaic.StableHlo in
/-- A buffer that no operation of a stretch writes holds after the stretch what it held before. -/
macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (by decide))))

/-! ## The host's quantization of one matrix, as functions of the matrix

The host computes a matrix's scale as one over its mean magnitude (the mean bounded below), multiplies the matrix by
it, rounds, clips to [-1, 1], divides by the scale again and transposes. -/

/-- The scale the host computes from a matrix: a rank-0 array. -/
def hostScale {s : Shape} {axes : List (Fin s.rank)} (hr : s.ReducesTo axes S_) (hu : 0 < S_.numel)
    (x : s.Idx → EReal) : S_.Idx → EReal :=
  Host.divf (F := Ideal) (φ := .f32) (constant (F := Ideal) S_ .f32 0x3F800000#32)
    (maximumf (F := Ideal) (φ := .f32)
      (Host.divf (F := Ideal) (φ := .f32)
        (Host.reduceAdd (F := Ideal) (φ := .f32) (Host.absf (F := Ideal) (φ := .f32) x) (constant (F := Ideal) S_ .f32 0x00000000#32) hr hu)
        (constant (F := Ideal) S_ .f32 0x4A800000#32))
      (constant (F := Ideal) S_ .f32 0x3727C5AC#32))

/-- The scale is the specification's, whatever index reads it. -/
theorem hostScale_apply {s : Shape} {axes : List (Fin s.rank)} (hr : s.ReducesTo axes S_) (hu : 0 < S_.numel)
    (x : s.Idx → EReal) (i : S_.Idx) : hostScale hr hu x i = wscale (wtot x) := by
  show Ideal.div (Ideal.ofBits .f32 0x3F800000#32)
      (max (Ideal.div (Ideal.hostReduceAdd hr (fun j => max (x j) (-(x j))) (Ideal.ofBits .f32 0x00000000#32) i) (Ideal.ofBits .f32 0x4A800000#32))
        (Ideal.ofBits .f32 0x3727C5AC#32)) = _
  rw [Ideal.hostReduceAdd_total hr (fun b => b.elim0)]
  rfl

/-- The matrix times its scale. -/
def hostScaled {a b : ℕ} (hb : S_.BroadcastsInDim ⟨2, ![a, b]⟩ (![] : Fin 0 → Fin 2))
    (x : (⟨2, ![a, b]⟩ : Shape).Idx → EReal) (sc : S_.Idx → EReal) : (⟨2, ![a, b]⟩ : Shape).Idx → EReal :=
  mulf (F := Ideal) (φ := .f32) x (broadcastInDim ⟨2, ![a, b]⟩ ![] hb sc)

/-- A matrix clipped to [-1, 1]. -/
def hostClip {a b : ℕ} (hb : S_.BroadcastsInDim ⟨2, ![a, b]⟩ (![] : Fin 0 → Fin 2))
    (y : (⟨2, ![a, b]⟩ : Shape).Idx → EReal) : (⟨2, ![a, b]⟩ : Shape).Idx → EReal :=
  minimumf (F := Ideal) (φ := .f32) (broadcastInDim ⟨2, ![a, b]⟩ ![] hb (constant (F := Ideal) S_ .f32 0x3F800000#32))
    (maximumf (F := Ideal) (φ := .f32) (broadcastInDim ⟨2, ![a, b]⟩ ![] hb (constant (F := Ideal) S_ .f32 0xBF800000#32)) y)

/-- A matrix divided by a scale, then transposed. -/
def hostOut {a b : ℕ} (hb : S_.BroadcastsInDim ⟨2, ![a, b]⟩ (![] : Fin 0 → Fin 2))
    (ht : (⟨2, ![a, b]⟩ : Shape).Transposes [1, 0] ⟨2, ![b, a]⟩) (hlt : FTy.bits .bf16 < FTy.bits .f32)
    (y : (⟨2, ![a, b]⟩ : Shape).Idx → EReal) (sc : S_.Idx → EReal) : (⟨2, ![b, a]⟩ : Shape).Idx → EReal :=
  truncf (F := Ideal) .bf16
    (transpose ⟨2, ![b, a]⟩ [1, 0] (Host.divf (F := Ideal) (φ := .f32) y (broadcastInDim ⟨2, ![a, b]⟩ ![] hb sc)) ht) hlt

/-- One entry of the quantized, transposed matrix: the specification's three-level quantization of the entry across
    the diagonal, at the scale the rank-0 array holds. -/
theorem hostOut_apply {a b : ℕ} (hb : S_.BroadcastsInDim ⟨2, ![a, b]⟩ (![] : Fin 0 → Fin 2))
    (ht : (⟨2, ![a, b]⟩ : Shape).Transposes [1, 0] ⟨2, ![b, a]⟩) (hlt : FTy.bits .bf16 < FTy.bits .f32)
    (x : (⟨2, ![a, b]⟩ : Shape).Idx → EReal) (sc : S_.Idx → EReal) (k : Fin b) (j : Fin a) :
    hostOut hb ht hlt (hostClip hb (Host.roundeven (F := Ideal) (φ := .f32) (hostScaled hb x sc))) sc (ix2 k j)
      = q3 (sc ix0) (x (ix2 j k)) := by
  unfold hostOut
  rw [truncf_apply, transpose_ix2_apply]
  show Ideal.div (min (broadcastInDim ⟨2, ![a, b]⟩ ![] hb (constant (F := Ideal) S_ .f32 0x3F800000#32) (ix2 j k))
      (max (broadcastInDim ⟨2, ![a, b]⟩ ![] hb (constant (F := Ideal) S_ .f32 0xBF800000#32) (ix2 j k))
        (Ideal.liftRound Ideal.roundHalfEven (x (ix2 j k) * broadcastInDim ⟨2, ![a, b]⟩ ![] hb sc (ix2 j k)))))
      (broadcastInDim ⟨2, ![a, b]⟩ ![] hb sc (ix2 j k)) = _
  rw [Cert.HostLayout.bcast_scalar_apply, Cert.HostLayout.bcast_scalar_apply, Cert.HostLayout.bcast_scalar_apply]
  rfl

variable (m : (ℓ : Loc nD τ sig) → Buf (Elt Ideal) ℓ) (ρ : Dev nD → PrngReg)

/-- Row `2048 * b + s` of the flattened input. -/
def rowOf (b : Fin 4) (s : Fin 2048) : Fin 8192 := ⟨2048 * b.val + s.val, by omega⟩

/-- The first launch's row operand is the input, its two leading axes flattened. -/
theorem W13_v0 (c : Dev nD) (b : Fin 4) (s : Fin 2048) (k : Fin 1024) :
    (W13 (F := Ideal) m ρ c (Proc.devRef .tc main_v0) : S8192x1024.Idx → EReal) (ix2 (rowOf b s) k)
      = (m ((c : Thread nD τ).loc main_arg0) : S4x2048x1024.Idx → EReal) (ix3 b s k) := by
  have hback : W13 (F := Ideal) m ρ c (Proc.devRef .tc main_v0) = W1 (F := Ideal) m ρ c (Proc.devRef .tc main_v0) :=
    calc W13 (F := Ideal) m ρ c (Proc.devRef .tc main_v0)
      _ = W12 (F := Ideal) m ρ c (Proc.devRef .tc main_v0) := by unwritten hostOps0_12
      _ = W11 (F := Ideal) m ρ c (Proc.devRef .tc main_v0) := by unwritten hostOps0_11
      _ = W10 (F := Ideal) m ρ c (Proc.devRef .tc main_v0) := by unwritten hostOps0_10
      _ = W9 (F := Ideal) m ρ c (Proc.devRef .tc main_v0) := by unwritten hostOps0_9
      _ = W8 (F := Ideal) m ρ c (Proc.devRef .tc main_v0) := by unwritten hostOps0_8
      _ = W7 (F := Ideal) m ρ c (Proc.devRef .tc main_v0) := by unwritten hostOps0_7
      _ = W6 (F := Ideal) m ρ c (Proc.devRef .tc main_v0) := by unwritten hostOps0_6
      _ = W5 (F := Ideal) m ρ c (Proc.devRef .tc main_v0) := by unwritten hostOps0_5
      _ = W4 (F := Ideal) m ρ c (Proc.devRef .tc main_v0) := by unwritten hostOps0_4
      _ = W3 (F := Ideal) m ρ c (Proc.devRef .tc main_v0) := by unwritten hostOps0_3
      _ = W2 (F := Ideal) m ρ c (Proc.devRef .tc main_v0) := by unwritten hostOps0_2
      _ = W1 (F := Ideal) m ρ c (Proc.devRef .tc main_v0) := by unwritten hostOps0_1
  have h : W1 (F := Ideal) m ρ c (Proc.devRef .tc main_v0)
      = fun i => shapeCast S8192x1024 (m ((c : Thread nD τ).loc main_arg0) : S4x2048x1024.Idx → EReal)
          shapeCasts_S4x2048x1024_S8192x1024 i := by
    show StableHlo.after hostOps0 (W0 (F := Ideal) m ρ c) (Proc.devRef .tc main_v0) = _
    after_results
    rfl
  rw [hback, h]
  refine shapeCast_apply _ _ (ix2 (rowOf b s) k) (ix3 b s k) ?_
  rw [Shape.rowMajor_val_two, Shape.rowMajor_val_three]
  show (b.val * 2048 + s.val) * 1024 + k.val = (2048 * b.val + s.val) * 1024 + k.val
  omega

/-! ## The gate weights through the stretches -/

/-- The gate matrix's scale, once computed. -/
theorem W1_v5 (c : Dev nD) : W1 (F := Ideal) m ρ c (Proc.devRef .tc main_v5)
    = hostScale reducesTo_S4096x1024_S_d0_1 h_S_ (m ((c : Thread nD τ).loc main_arg1) : S4096x1024.Idx → EReal) := by
  show StableHlo.after hostOps0 (W0 (F := Ideal) m ρ c) (Proc.devRef .tc main_v5) = _
  after_results <;> rfl

/-- The gate matrix times its scale. -/
theorem W1_v7 (c : Dev nD) : W1 (F := Ideal) m ρ c (Proc.devRef .tc main_v7)
    = hostScaled bcast_S_S4096x1024 (m ((c : Thread nD τ).loc main_arg1) : S4096x1024.Idx → EReal)
        (hostScale reducesTo_S4096x1024_S_d0_1 h_S_ (m ((c : Thread nD τ).loc main_arg1) : S4096x1024.Idx → EReal)) := by
  show StableHlo.after hostOps0 (W0 (F := Ideal) m ρ c) (Proc.devRef .tc main_v7) = _
  after_results <;> rfl

/-- Rounded. -/
theorem W2_v8 (c : Dev nD) : W2 (F := Ideal) m ρ c (Proc.devRef .tc main_v8)
    = Host.roundeven (F := Ideal) (φ := .f32) (W1 (F := Ideal) m ρ c (Proc.devRef .tc main_v7) : S4096x1024.Idx → EReal) := by
  show StableHlo.after hostOps0_1 (W1 (F := Ideal) m ρ c) (Proc.devRef .tc main_v8) = _
  generalize W1 (F := Ideal) m ρ c = V
  after_results <;> rfl

theorem W3_cst_3 (c : Dev nD) : W3 (F := Ideal) m ρ c (Proc.devRef .tc main_cst_3) = constant (F := Ideal) S_ .f32 0xBF800000#32 := by
  show StableHlo.after hostOps0_2 (W2 (F := Ideal) m ρ c) (Proc.devRef .tc main_cst_3) = _
  generalize W2 (F := Ideal) m ρ c = V
  after_results <;> rfl

theorem W3_cst_4 (c : Dev nD) : W3 (F := Ideal) m ρ c (Proc.devRef .tc main_cst_4) = constant (F := Ideal) S_ .f32 0x3F800000#32 := by
  show StableHlo.after hostOps0_2 (W2 (F := Ideal) m ρ c) (Proc.devRef .tc main_cst_4) = _
  generalize W2 (F := Ideal) m ρ c = V
  after_results <;> rfl

theorem W3_v8 (c : Dev nD) : W3 (F := Ideal) m ρ c (Proc.devRef .tc main_v8) = W2 (F := Ideal) m ρ c (Proc.devRef .tc main_v8) := by
  unwritten hostOps0_2

/-- Clipped, in terms of what the clip reads. -/
theorem W4_v9_read (c : Dev nD) : W4 (F := Ideal) m ρ c (Proc.devRef .tc main_v9)
    = minimumf (F := Ideal) (φ := .f32)
        (broadcastInDim S4096x1024 ![] bcast_S_S4096x1024 (W3 (F := Ideal) m ρ c (Proc.devRef .tc main_cst_4) : S_.Idx → EReal))
        (maximumf (F := Ideal) (φ := .f32)
          (broadcastInDim S4096x1024 ![] bcast_S_S4096x1024 (W3 (F := Ideal) m ρ c (Proc.devRef .tc main_cst_3) : S_.Idx → EReal))
          (W3 (F := Ideal) m ρ c (Proc.devRef .tc main_v8) : S4096x1024.Idx → EReal)) := by
  show StableHlo.after hostOps0_3 (W3 (F := Ideal) m ρ c) (Proc.devRef .tc main_v9) = _
  generalize W3 (F := Ideal) m ρ c = V
  after_results <;> rfl

/-- Clipped. -/
theorem W4_v9 (c : Dev nD) : W4 (F := Ideal) m ρ c (Proc.devRef .tc main_v9)
    = hostClip bcast_S_S4096x1024 (W2 (F := Ideal) m ρ c (Proc.devRef .tc main_v8) : S4096x1024.Idx → EReal) := by
  rw [W4_v9_read, W3_cst_3, W3_cst_4, W3_v8]
  rfl

/-- The scale is still there when the quotient reads it. -/
theorem W4_v5 (c : Dev nD) : W4 (F := Ideal) m ρ c (Proc.devRef .tc main_v5) = W1 (F := Ideal) m ρ c (Proc.devRef .tc main_v5) :=
  calc W4 (F := Ideal) m ρ c (Proc.devRef .tc main_v5)
    _ = W3 (F := Ideal) m ρ c (Proc.devRef .tc main_v5) := by unwritten hostOps0_3
    _ = W2 (F := Ideal) m ρ c (Proc.devRef .tc main_v5) := by unwritten hostOps0_2
    _ = W1 (F := Ideal) m ρ c (Proc.devRef .tc main_v5) := by unwritten hostOps0_1

/-- Divided by the scale and transposed. -/
theorem W5_v13 (c : Dev nD) : W5 (F := Ideal) m ρ c (Proc.devRef .tc main_v13)
    = hostOut bcast_S_S4096x1024 transposes_S4096x1024_S1024x4096_1_0 bitsLt_bf16_f32
        (W4 (F := Ideal) m ρ c (Proc.devRef .tc main_v9) : S4096x1024.Idx → EReal)
        (W4 (F := Ideal) m ρ c (Proc.devRef .tc main_v5) : S_.Idx → EReal) := by
  show StableHlo.after hostOps0_4 (W4 (F := Ideal) m ρ c) (Proc.devRef .tc main_v13) = _
  generalize W4 (F := Ideal) m ρ c = V
  after_results_simp <;> rfl

/-- Nothing later writes it. -/
theorem W13_v13_back (c : Dev nD) : W13 (F := Ideal) m ρ c (Proc.devRef .tc main_v13) = W5 (F := Ideal) m ρ c (Proc.devRef .tc main_v13) :=
  calc W13 (F := Ideal) m ρ c (Proc.devRef .tc main_v13)
    _ = W12 (F := Ideal) m ρ c (Proc.devRef .tc main_v13) := by unwritten hostOps0_12
    _ = W11 (F := Ideal) m ρ c (Proc.devRef .tc main_v13) := by unwritten hostOps0_11
    _ = W10 (F := Ideal) m ρ c (Proc.devRef .tc main_v13) := by unwritten hostOps0_10
    _ = W9 (F := Ideal) m ρ c (Proc.devRef .tc main_v13) := by unwritten hostOps0_9
    _ = W8 (F := Ideal) m ρ c (Proc.devRef .tc main_v13) := by unwritten hostOps0_8
    _ = W7 (F := Ideal) m ρ c (Proc.devRef .tc main_v13) := by unwritten hostOps0_7
    _ = W6 (F := Ideal) m ρ c (Proc.devRef .tc main_v13) := by unwritten hostOps0_6
    _ = W5 (F := Ideal) m ρ c (Proc.devRef .tc main_v13) := by unwritten hostOps0_5

/-- The gate weights, quantized and transposed. -/
theorem W13_v13 (c : Dev nD) (k : Fin 1024) (j : Fin 4096) :
    (W13 (F := Ideal) m ρ c (Proc.devRef .tc main_v13) : S1024x4096.Idx → EReal) (ix2 k j)
      = q3 (wscale (wtot (fun i : S4096x1024.Idx => (m ((c : Thread nD τ).loc main_arg1) i : EReal))))
          ((m ((c : Thread nD τ).loc main_arg1) : S4096x1024.Idx → EReal) (ix2 j k)) := by
  rw [W13_v13_back, W5_v13, W4_v9, W4_v5, W2_v8, W1_v7, W1_v5]
  rw [hostOut_apply, hostScale_apply]

/-! ## The up weights through the stretches -/

/-- No stretch writes the argument. -/
theorem W4_main_arg2 (c : Dev nD) : W4 (F := Ideal) m ρ c (Proc.devRef .tc main_arg2) = m ((c : Thread nD τ).loc main_arg2) :=
  calc W4 (F := Ideal) m ρ c (Proc.devRef .tc main_arg2)
    _ = W3 (F := Ideal) m ρ c (Proc.devRef .tc main_arg2) := by unwritten hostOps0_3
    _ = W2 (F := Ideal) m ρ c (Proc.devRef .tc main_arg2) := by unwritten hostOps0_2
    _ = W1 (F := Ideal) m ρ c (Proc.devRef .tc main_arg2) := by unwritten hostOps0_1
    _ = W0 (F := Ideal) m ρ c (Proc.devRef .tc main_arg2) := by unwritten hostOps0
    _ = m ((c : Thread nD τ).loc main_arg2) := rfl

/-- The matrix's scale, once computed. -/
theorem W5_main_v18 (c : Dev nD) : W5 (F := Ideal) m ρ c (Proc.devRef .tc main_v18)
    = hostScale reducesTo_S4096x1024_S_d0_1 h_S_ (m ((c : Thread nD τ).loc main_arg2) : S4096x1024.Idx → EReal) := by
  rw [← W4_main_arg2 m ρ c]
  show StableHlo.after hostOps0_4 (W4 (F := Ideal) m ρ c) (Proc.devRef .tc main_v18) = _
  generalize W4 (F := Ideal) m ρ c = V
  after_results_simp <;> rfl

/-- The matrix times its scale. -/
theorem W5_main_v20 (c : Dev nD) : W5 (F := Ideal) m ρ c (Proc.devRef .tc main_v20)
    = hostScaled bcast_S_S4096x1024 (m ((c : Thread nD τ).loc main_arg2) : S4096x1024.Idx → EReal)
        (hostScale reducesTo_S4096x1024_S_d0_1 h_S_ (m ((c : Thread nD τ).loc main_arg2) : S4096x1024.Idx → EReal)) := by
  rw [← W4_main_arg2 m ρ c]
  show StableHlo.after hostOps0_4 (W4 (F := Ideal) m ρ c) (Proc.devRef .tc main_v20) = _
  generalize W4 (F := Ideal) m ρ c = V
  after_results_simp <;> rfl

/-- Rounded. -/
theorem W6_main_v21 (c : Dev nD) : W6 (F := Ideal) m ρ c (Proc.devRef .tc main_v21)
    = Host.roundeven (F := Ideal) (φ := .f32) (W5 (F := Ideal) m ρ c (Proc.devRef .tc main_v20) : S4096x1024.Idx → EReal) := by
  show StableHlo.after hostOps0_5 (W5 (F := Ideal) m ρ c) (Proc.devRef .tc main_v21) = _
  generalize W5 (F := Ideal) m ρ c = V
  after_results <;> rfl

theorem W7_main_cst_9 (c : Dev nD) : W7 (F := Ideal) m ρ c (Proc.devRef .tc main_cst_9) = constant (F := Ideal) S_ .f32 0xBF800000#32 := by
  show StableHlo.after hostOps0_6 (W6 (F := Ideal) m ρ c) (Proc.devRef .tc main_cst_9) = _
  generalize W6 (F := Ideal) m ρ c = V
  after_results <;> rfl

theorem W7_main_cst_10 (c : Dev nD) : W7 (F := Ideal) m ρ c (Proc.devRef .tc main_cst_10) = constant (F := Ideal) S_ .f32 0x3F800000#32 := by
  show StableHlo.after hostOps0_6 (W6 (F := Ideal) m ρ c) (Proc.devRef .tc main_cst_10) = _
  generalize W6 (F := Ideal) m ρ c = V
  after_results <;> rfl

theorem W7_main_v21 (c : Dev nD) : W7 (F := Ideal) m ρ c (Proc.devRef .tc main_v21) = W6 (F := Ideal) m ρ c (Proc.devRef .tc main_v21) := by
  unwritten hostOps0_6

/-- Clipped, in terms of what the clip reads. -/
theorem W8_main_v22_read (c : Dev nD) : W8 (F := Ideal) m ρ c (Proc.devRef .tc main_v22)
    = minimumf (F := Ideal) (φ := .f32)
        (broadcastInDim S4096x1024 ![] bcast_S_S4096x1024 (W7 (F := Ideal) m ρ c (Proc.devRef .tc main_cst_10) : S_.Idx → EReal))
        (maximumf (F := Ideal) (φ := .f32)
          (broadcastInDim S4096x1024 ![] bcast_S_S4096x1024 (W7 (F := Ideal) m ρ c (Proc.devRef .tc main_cst_9) : S_.Idx → EReal))
          (W7 (F := Ideal) m ρ c (Proc.devRef .tc main_v21) : S4096x1024.Idx → EReal)) := by
  show StableHlo.after hostOps0_7 (W7 (F := Ideal) m ρ c) (Proc.devRef .tc main_v22) = _
  generalize W7 (F := Ideal) m ρ c = V
  after_results <;> rfl

/-- Clipped. -/
theorem W8_main_v22 (c : Dev nD) : W8 (F := Ideal) m ρ c (Proc.devRef .tc main_v22)
    = hostClip bcast_S_S4096x1024 (W6 (F := Ideal) m ρ c (Proc.devRef .tc main_v21) : S4096x1024.Idx → EReal) := by
  rw [W8_main_v22_read, W7_main_cst_9, W7_main_cst_10, W7_main_v21]
  rfl

/-- The scale is still there when the quotient reads it. -/
theorem W8_main_v18 (c : Dev nD) : W8 (F := Ideal) m ρ c (Proc.devRef .tc main_v18) = W5 (F := Ideal) m ρ c (Proc.devRef .tc main_v18) :=
  calc W8 (F := Ideal) m ρ c (Proc.devRef .tc main_v18)
    _ = W7 (F := Ideal) m ρ c (Proc.devRef .tc main_v18) := by unwritten hostOps0_7
    _ = W6 (F := Ideal) m ρ c (Proc.devRef .tc main_v18) := by unwritten hostOps0_6
    _ = W5 (F := Ideal) m ρ c (Proc.devRef .tc main_v18) := by unwritten hostOps0_5

/-- Divided by the scale and transposed. -/
theorem W9_main_v26 (c : Dev nD) : W9 (F := Ideal) m ρ c (Proc.devRef .tc main_v26)
    = hostOut bcast_S_S4096x1024 transposes_S4096x1024_S1024x4096_1_0 bitsLt_bf16_f32
        (W8 (F := Ideal) m ρ c (Proc.devRef .tc main_v22) : S4096x1024.Idx → EReal)
        (W8 (F := Ideal) m ρ c (Proc.devRef .tc main_v18) : S_.Idx → EReal) := by
  show StableHlo.after hostOps0_8 (W8 (F := Ideal) m ρ c) (Proc.devRef .tc main_v26) = _
  generalize W8 (F := Ideal) m ρ c = V
  after_results_simp <;> rfl

/-- Nothing later writes it. -/
theorem W13_main_v26_back (c : Dev nD) : W13 (F := Ideal) m ρ c (Proc.devRef .tc main_v26) = W9 (F := Ideal) m ρ c (Proc.devRef .tc main_v26) :=
  calc W13 (F := Ideal) m ρ c (Proc.devRef .tc main_v26)
    _ = W12 (F := Ideal) m ρ c (Proc.devRef .tc main_v26) := by unwritten hostOps0_12
    _ = W11 (F := Ideal) m ρ c (Proc.devRef .tc main_v26) := by unwritten hostOps0_11
    _ = W10 (F := Ideal) m ρ c (Proc.devRef .tc main_v26) := by unwritten hostOps0_10
    _ = W9 (F := Ideal) m ρ c (Proc.devRef .tc main_v26) := by unwritten hostOps0_9

/-- The up weights, quantized and transposed. -/
theorem W13_v26 (c : Dev nD) (k : Fin 1024) (j : Fin 4096) :
    (W13 (F := Ideal) m ρ c (Proc.devRef .tc main_v26) : S1024x4096.Idx → EReal) (ix2 k j)
      = q3 (wscale (wtot (fun i : S4096x1024.Idx => (m ((c : Thread nD τ).loc main_arg2) i : EReal))))
          ((m ((c : Thread nD τ).loc main_arg2) : S4096x1024.Idx → EReal) (ix2 j k)) := by
  rw [W13_main_v26_back, W9_main_v26, W8_main_v22, W8_main_v18, W6_main_v21, W5_main_v20, W5_main_v18]
  rw [hostOut_apply, hostScale_apply]

/-! ## The down weights through the stretches -/

/-- No stretch writes the argument. -/
theorem W8_main_arg3 (c : Dev nD) : W8 (F := Ideal) m ρ c (Proc.devRef .tc main_arg3) = m ((c : Thread nD τ).loc main_arg3) :=
  calc W8 (F := Ideal) m ρ c (Proc.devRef .tc main_arg3)
    _ = W7 (F := Ideal) m ρ c (Proc.devRef .tc main_arg3) := by unwritten hostOps0_7
    _ = W6 (F := Ideal) m ρ c (Proc.devRef .tc main_arg3) := by unwritten hostOps0_6
    _ = W5 (F := Ideal) m ρ c (Proc.devRef .tc main_arg3) := by unwritten hostOps0_5
    _ = W4 (F := Ideal) m ρ c (Proc.devRef .tc main_arg3) := by unwritten hostOps0_4
    _ = W3 (F := Ideal) m ρ c (Proc.devRef .tc main_arg3) := by unwritten hostOps0_3
    _ = W2 (F := Ideal) m ρ c (Proc.devRef .tc main_arg3) := by unwritten hostOps0_2
    _ = W1 (F := Ideal) m ρ c (Proc.devRef .tc main_arg3) := by unwritten hostOps0_1
    _ = W0 (F := Ideal) m ρ c (Proc.devRef .tc main_arg3) := by unwritten hostOps0
    _ = m ((c : Thread nD τ).loc main_arg3) := rfl

/-- The matrix's scale, once computed. -/
theorem W9_main_v31 (c : Dev nD) : W9 (F := Ideal) m ρ c (Proc.devRef .tc main_v31)
    = hostScale reducesTo_S1024x4096_S_d0_1 h_S_ (m ((c : Thread nD τ).loc main_arg3) : S1024x4096.Idx → EReal) := by
  rw [← W8_main_arg3 m ρ c]
  show StableHlo.after hostOps0_8 (W8 (F := Ideal) m ρ c) (Proc.devRef .tc main_v31) = _
  generalize W8 (F := Ideal) m ρ c = V
  after_results_simp <;> rfl

/-- The matrix times its scale. -/
theorem W9_main_v33 (c : Dev nD) : W9 (F := Ideal) m ρ c (Proc.devRef .tc main_v33)
    = hostScaled bcast_S_S1024x4096 (m ((c : Thread nD τ).loc main_arg3) : S1024x4096.Idx → EReal)
        (hostScale reducesTo_S1024x4096_S_d0_1 h_S_ (m ((c : Thread nD τ).loc main_arg3) : S1024x4096.Idx → EReal)) := by
  rw [← W8_main_arg3 m ρ c]
  show StableHlo.after hostOps0_8 (W8 (F := Ideal) m ρ c) (Proc.devRef .tc main_v33) = _
  generalize W8 (F := Ideal) m ρ c = V
  after_results_simp <;> rfl

/-- Rounded. -/
theorem W10_main_v34 (c : Dev nD) : W10 (F := Ideal) m ρ c (Proc.devRef .tc main_v34)
    = Host.roundeven (F := Ideal) (φ := .f32) (W9 (F := Ideal) m ρ c (Proc.devRef .tc main_v33) : S1024x4096.Idx → EReal) := by
  show StableHlo.after hostOps0_9 (W9 (F := Ideal) m ρ c) (Proc.devRef .tc main_v34) = _
  generalize W9 (F := Ideal) m ρ c = V
  after_results <;> rfl

theorem W11_main_cst_15 (c : Dev nD) : W11 (F := Ideal) m ρ c (Proc.devRef .tc main_cst_15) = constant (F := Ideal) S_ .f32 0xBF800000#32 := by
  show StableHlo.after hostOps0_10 (W10 (F := Ideal) m ρ c) (Proc.devRef .tc main_cst_15) = _
  generalize W10 (F := Ideal) m ρ c = V
  after_results <;> rfl

theorem W11_main_cst_16 (c : Dev nD) : W11 (F := Ideal) m ρ c (Proc.devRef .tc main_cst_16) = constant (F := Ideal) S_ .f32 0x3F800000#32 := by
  show StableHlo.after hostOps0_10 (W10 (F := Ideal) m ρ c) (Proc.devRef .tc main_cst_16) = _
  generalize W10 (F := Ideal) m ρ c = V
  after_results <;> rfl

theorem W11_main_v34 (c : Dev nD) : W11 (F := Ideal) m ρ c (Proc.devRef .tc main_v34) = W10 (F := Ideal) m ρ c (Proc.devRef .tc main_v34) := by
  unwritten hostOps0_10

/-- Clipped, in terms of what the clip reads. -/
theorem W12_main_v35_read (c : Dev nD) : W12 (F := Ideal) m ρ c (Proc.devRef .tc main_v35)
    = minimumf (F := Ideal) (φ := .f32)
        (broadcastInDim S1024x4096 ![] bcast_S_S1024x4096 (W11 (F := Ideal) m ρ c (Proc.devRef .tc main_cst_16) : S_.Idx → EReal))
        (maximumf (F := Ideal) (φ := .f32)
          (broadcastInDim S1024x4096 ![] bcast_S_S1024x4096 (W11 (F := Ideal) m ρ c (Proc.devRef .tc main_cst_15) : S_.Idx → EReal))
          (W11 (F := Ideal) m ρ c (Proc.devRef .tc main_v34) : S1024x4096.Idx → EReal)) := by
  show StableHlo.after hostOps0_11 (W11 (F := Ideal) m ρ c) (Proc.devRef .tc main_v35) = _
  generalize W11 (F := Ideal) m ρ c = V
  after_results <;> rfl

/-- Clipped. -/
theorem W12_main_v35 (c : Dev nD) : W12 (F := Ideal) m ρ c (Proc.devRef .tc main_v35)
    = hostClip bcast_S_S1024x4096 (W10 (F := Ideal) m ρ c (Proc.devRef .tc main_v34) : S1024x4096.Idx → EReal) := by
  rw [W12_main_v35_read, W11_main_cst_15, W11_main_cst_16, W11_main_v34]
  rfl

/-- The scale is still there when the quotient reads it. -/
theorem W12_main_v31 (c : Dev nD) : W12 (F := Ideal) m ρ c (Proc.devRef .tc main_v31) = W9 (F := Ideal) m ρ c (Proc.devRef .tc main_v31) :=
  calc W12 (F := Ideal) m ρ c (Proc.devRef .tc main_v31)
    _ = W11 (F := Ideal) m ρ c (Proc.devRef .tc main_v31) := by unwritten hostOps0_11
    _ = W10 (F := Ideal) m ρ c (Proc.devRef .tc main_v31) := by unwritten hostOps0_10
    _ = W9 (F := Ideal) m ρ c (Proc.devRef .tc main_v31) := by unwritten hostOps0_9

/-- Divided by the scale and transposed. -/
theorem W13_main_v39 (c : Dev nD) : W13 (F := Ideal) m ρ c (Proc.devRef .tc main_v39)
    = hostOut bcast_S_S1024x4096 transposes_S1024x4096_S4096x1024_1_0 bitsLt_bf16_f32
        (W12 (F := Ideal) m ρ c (Proc.devRef .tc main_v35) : S1024x4096.Idx → EReal)
        (W12 (F := Ideal) m ρ c (Proc.devRef .tc main_v31) : S_.Idx → EReal) := by
  show StableHlo.after hostOps0_12 (W12 (F := Ideal) m ρ c) (Proc.devRef .tc main_v39) = _
  generalize W12 (F := Ideal) m ρ c = V
  after_results_simp <;> rfl

/-- The down weights, quantized and transposed. -/
theorem W13_v39 (c : Dev nD) (j : Fin 4096) (cc : Fin 1024) :
    (W13 (F := Ideal) m ρ c (Proc.devRef .tc main_v39) : S4096x1024.Idx → EReal) (ix2 j cc)
      = q3 (wscale (wtot (fun i : S1024x4096.Idx => (m ((c : Thread nD τ).loc main_arg3) i : EReal))))
          ((m ((c : Thread nD τ).loc main_arg3) : S1024x4096.Idx → EReal) (ix2 cc j)) := by
  rw [W13_main_v39, W12_main_v35, W12_main_v31, W10_main_v34, W9_main_v33, W9_main_v31]
  rw [hostOut_apply, hostScale_apply]

/-- The program's result is the second launch's result with its rows unflattened. -/
theorem W16_v42 (c : Dev nD) (b : Fin 4) (s : Fin 2048) (cc : Fin 1024) :
    (W16 (F := Ideal) m ρ c (Proc.devRef .tc main_v42) : S4x2048x1024.Idx → EReal) (ix3 b s cc)
      = (W15 (F := Ideal) m ρ c (Proc.devRef .tc main_v41) : S8192x1024.Idx → EReal) (ix2 (rowOf b s) cc) := by
  have h : W16 (F := Ideal) m ρ c (Proc.devRef .tc main_v42)
      = fun i => shapeCast S4x2048x1024 (W15 (F := Ideal) m ρ c (Proc.devRef .tc main_v41) : S8192x1024.Idx → EReal)
          shapeCasts_S8192x1024_S4x2048x1024 i := by
    show StableHlo.after hostOps2 (W15 (F := Ideal) m ρ c) (Proc.devRef .tc main_v42) = _
    after_results
    rfl
  rw [h]
  refine shapeCast_apply _ _ (ix3 b s cc) (ix2 (rowOf b s) cc) ?_
  rw [Shape.rowMajor_val_two, Shape.rowMajor_val_three]
  show (2048 * b.val + s.val) * 1024 + cc.val = (b.val * 2048 + s.val) * 1024 + cc.val
  omega

end Cert.KernelIdeal.HostVal

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Region0.lean ====
/-
  The first launch read at an entry: row `r` of its result is the row's hidden vector, quantized with the row's own
  scale, a function of row `r` of the first operand and of the two weight operands.
-/
import proofs.«171611_j41403484733540_1_alg».proof.Proof.Gen.KernelIdeal.Frame
import proofs.«171611_j41403484733540_1_alg».proof.Proof.Spec
import proofs.«171611_j41403484733540_1_alg».proof.Proof.LibMatRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Ffn

variable (V : (c : Dev nD) → (b : Ref sig .tc) → Buf (Elt Ideal) ((c : Thread nD τ).loc b))

/-- A column of row values read at (p, u): the row's value. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows: at (p, c) the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The largest magnitude of row p of a matrix, as the reduction over its columns computes it. -/
theorem rowMax_reduce {M K : ℕ} (src : FVec Ideal ⟨2, ![M, K]⟩ .f32) (h : Shape.Reduces ⟨2, ![M, K]⟩ [1] ⟨1, ![M]⟩)
    (hφ : FKind.Formats .f32) (hacc : (0xFF800000#32 : BitVec 32) = FKind.maximumf.neutral .f32 hφ) (p : Fin M) :
    multiReduction .maximumf [1] ⟨1, ![M]⟩ (absf src) 0xFF800000#32 h hφ hacc (ix1 p)
      = rowMax (fun k : Fin K => src (ix2 p k)) := by
  refine (Ideal.multiReduction_maximumf_single (absf src) 0xFF800000#32 h hφ hacc (ix1 p)).trans ?_
  have e : ∀ k : Fin K, h.lift (ix1 p) k = ix2 p k := fun k => funext fun a => Fin.ext (by
    match a with
    | ⟨0, _⟩ => rfl
    | ⟨1, _⟩ => rfl)
  show (Finset.univ : Finset (Fin K)).fold max ninf (fun k => absE (src (h.lift (ix1 p) k))) = _
  exact congrArg (fun f : Fin K → EReal => (Finset.univ : Finset (Fin K)).fold max ninf f)
    (funext fun k => congrArg (fun i => absE (src i)) (e k))

section Quant
variable {M K : ℕ}

/-- A row's scale, as the column of scales holds it: 127 over the row's largest magnitude bounded below. -/
theorem scaleCol_apply (src : FVec Ideal ⟨2, ![M, K]⟩ .f32) (h : Shape.Reduces ⟨2, ![M, K]⟩ [1] ⟨1, ![M]⟩)
    (hφ : FKind.Formats .f32) (hacc : (0xFF800000#32 : BitVec 32) = FKind.maximumf.neutral .f32 hφ)
    (hc : (⟨1, ![M]⟩ : Shape).ShapeCasts ⟨2, ![M, 1]⟩) (p : Fin M) (u : Fin 1) :
    divf (broadcast ⟨2, ![M, 1]⟩ (Scalar.ofBits .f32 0x42FE0000#32 : Ideal .f32))
        (maximumf (shapeCast ⟨2, ![M, 1]⟩ (multiReduction .maximumf [1] ⟨1, ![M]⟩ (absf src) 0xFF800000#32 h hφ hacc) hc)
          (broadcast ⟨2, ![M, 1]⟩ (Scalar.ofBits .f32 0x3727C5AC#32 : Ideal .f32))) (ix2 p u)
      = scale8 (rowMax fun k : Fin K => src (ix2 p k)) := by
  show Ideal.div c127 (max (shapeCast ⟨2, ![M, 1]⟩ (multiReduction .maximumf [1] ⟨1, ![M]⟩ (absf src) 0xFF800000#32 h hφ hacc) hc (ix2 p u)) eps) = _
  rw [shapeCast_a_a1_apply, rowMax_reduce]
  rfl

/-- An entry quantized with its row's scale, the scales held as a column. -/
theorem quant_apply (src : FVec Ideal ⟨2, ![M, K]⟩ .f32) (s : FVec Ideal ⟨2, ![M, 1]⟩ .f32)
    (hb : (⟨2, ![M, 1]⟩ : Shape).Broadcasts ⟨2, ![M, K]⟩) (p : Fin M) (k : Fin K) :
    divf (minimumf (broadcast ⟨2, ![M, K]⟩ (Scalar.ofBits .f32 0x42FE0000#32 : Ideal .f32))
          (maximumf (broadcast ⟨2, ![M, K]⟩ (Scalar.ofBits .f32 0xC3000000#32 : Ideal .f32))
            (roundeven (mulf src (broadcastTo ⟨2, ![M, K]⟩ s hb)))))
        (broadcastTo ⟨2, ![M, K]⟩ s hb) (ix2 p k)
      = q8 (s (ix2 p (0 : Fin 1))) (src (ix2 p k)) := by
  show Ideal.div (min c127 (max cm128 (rnd (src (ix2 p k) * broadcastTo ⟨2, ![M, K]⟩ s hb (ix2 p k)))))
      (broadcastTo ⟨2, ![M, K]⟩ s hb (ix2 p k)) = _
  rw [broadcastTo_a1_ab_apply]
  rfl

end Quant

/-- The kernel's dimension numbers are the plain matrix product's. -/
theorem dot_eq_plain : dot_S256x1024_S1024x4096_S256x4096_1_0_0_1_n_n = DotDims.plain 256 1024 4096 := rfl

/-- Gate product times its logistic times up product, at (p, q). -/
theorem hid_apply (l : FVec Ideal S256x1024 .bf16) (r1 r2 : FVec Ideal S1024x4096 .bf16) (p : Fin 256) (q : Fin 4096) :
    mulf (mulf (matmul dot_S256x1024_S1024x4096_S256x4096_1_0_0_1_n_n none l r1 (constant (F := Ideal) S256x4096 .f32 0x00000000#32))
          (logistic (matmul dot_S256x1024_S1024x4096_S256x4096_1_0_0_1_n_n none l r1 (constant (F := Ideal) S256x4096 .f32 0x00000000#32))))
        (matmul dot_S256x1024_S1024x4096_S256x4096_1_0_0_1_n_n none l r2 (constant (F := Ideal) S256x4096 .f32 0x00000000#32)) (ix2 p q)
      = hid (fun k : Fin 1024 => l (ix2 p k)) (fun k : Fin 1024 => r1 (ix2 k q)) (fun k : Fin 1024 => r2 (ix2 k q)) := by
  rw [dot_eq_plain]
  show (matmul (DotDims.plain 256 1024 4096) none l r1 (constant (F := Ideal) ⟨2, ![256, 4096]⟩ .f32 0x00000000#32) (ix2 p q)
        * Ideal.logistic (matmul (DotDims.plain 256 1024 4096) none l r1 (constant (F := Ideal) ⟨2, ![256, 4096]⟩ .f32 0x00000000#32) (ix2 p q)))
      * matmul (DotDims.plain 256 1024 4096) none l r2 (constant (F := Ideal) ⟨2, ![256, 4096]⟩ .f32 0x00000000#32) (ix2 p q) = _
  rw [MatRows.matmul_plain_apply, MatRows.matmul_plain_apply]
  rfl

/-- The hidden block before its quantization, at (p, q): the row's hidden entry from the row's quantized activations and
    the two weight operands' columns q. -/
theorem pay2_apply (x0 : Vec Ideal S256x1024 .f32) (x1 x2 : Vec Ideal S1024x4096 .bf16) (p : Fin 256) (q : Fin 4096) :
    k0_pay2 (F := Ideal) x0 x1 x2 (ix2 p q)
      = hid (actq fun k : Fin 1024 => x0 (ix2 p k)) (fun k : Fin 1024 => x1 (ix2 k q)) (fun k : Fin 1024 => x2 (ix2 k q)) := by
  unfold k0_pay2
  dsimp only
  refine (hid_apply _ _ _ p q).trans ?_
  refine congr (congr (congrArg hid (funext fun k => ?_)) (funext fun k => ?_)) (funext fun k => ?_)
  · refine (truncf_apply (s := S256x1024) (φ := .f32) (ψ := .bf16) _ bitsLt_bf16_f32 (ix2 p k)).trans ?_
    refine (quant_apply _ _ _ p k).trans ?_
    have h1 := scaleCol_apply (shapeCast S256x1024 x0 shapeCasts_S256x1024_S256x1024) reduces_S256x1024_S256 (.inl rfl) rfl shapeCasts_S256_S256x1 p (0 : Fin 1)
    rw [h1]
    rw [shapeCast_self]
    rfl
  · exact congrFun (shapeCast_self x1 _) _
  · exact congrFun (shapeCast_self x2 _) _

/-- The scale of row p of the hidden block. -/
theorem pay3_apply (x0 : Vec Ideal S256x1024 .f32) (x1 x2 : Vec Ideal S1024x4096 .bf16) (p : Fin 256) (u : Fin 1) :
    k0_pay3 (F := Ideal) x0 x1 x2 (ix2 p u)
      = scale8 (rowMax fun q : Fin 4096 => k0_pay2 (F := Ideal) x0 x1 x2 (ix2 p q)) := by
  unfold k0_pay3
  dsimp only
  exact scaleCol_apply (k0_pay2 (F := Ideal) x0 x1 x2) reduces_S256x4096_S256 (.inl rfl) rfl shapeCasts_S256_S256x1 p u

theorem zero_offsets : (![0, 0] : Fin 2 → Nat) = fun _ => 0 := funext fun a => by fin_cases a <;> rfl

/-- What one grid point leaves in the output block, at (p, q): row p's hidden vector quantized with the row's scale. -/
theorem out_apply (x0 : Vec Ideal S256x1024 .f32) (x1 x2 : Vec Ideal S1024x4096 .bf16) (p : Fin 256) (q : Fin 4096) :
    out0_3 (F := Ideal) x0 x1 x2 (ix2 p q)
      = actq (fun q' : Fin 4096 => hid (actq fun k : Fin 1024 => x0 (ix2 p k)) (fun k : Fin 1024 => x1 (ix2 k q'))
          (fun k : Fin 1024 => x2 (ix2 k q'))) q := by
  unfold out0_3
  rw [View.canon_unit_zero zero_offsets]
  simp only [View.ld_unit_zero (S := S256x1024) zero_offsets, View.ld_unit_zero (S := S1024x4096) zero_offsets]
  unfold k0_pay1 k0_pay4 k0_pay5
  dsimp only
  refine (truncf_apply (s := S256x4096) (φ := .f32) (ψ := .bf16) _ bitsLt_bf16_f32 (ix2 p q)).trans ?_
  refine (quant_apply _ _ _ p q).trans ?_
  rw [pay3_apply]
  simp only [pay2_apply]
  rfl

/-! ## From the blocks to the array -/

/-- Row r, column j of the result, from the three arrays the launch finds. -/
def rowOut (a0 : S8192x1024.Idx → EReal) (a1 a2 : S1024x4096.Idx → EReal) (r : Fin 8192) (j : Fin 4096) : EReal :=
  actq (fun j' : Fin 4096 => hid (actq fun k : Fin 1024 => a0 (ix2 r k)) (fun k : Fin 1024 => a1 (ix2 k j'))
    (fun k : Fin 1024 => a2 (ix2 k j'))) j

/-- The whole result array. -/
def wholeOut (a0 : S8192x1024.Idx → EReal) (a1 a2 : S1024x4096.Idx → EReal) : S8192x4096.Idx → EReal :=
  fun i => rowOut a0 a1 a2 ⟨(i 0).val, idx2_lt0 i⟩ ⟨(i 1).val, idx2_lt1 i⟩

/-- A block of 256 rows computed from the same rows of the first array is that block of the whole result. -/
theorem out_eq_wholeOut (x0 : Vec Ideal S256x1024 .f32) (x1 x2 : Vec Ideal S1024x4096 .bf16) (a0 : S8192x1024.Idx → EReal) (b : Nat)
    (h0 : ∀ (p : Fin 256) (k : Fin 1024) (r : Fin 8192), r.val = b * 256 + p.val → x0 (ix2 p k) = a0 (ix2 r k))
    (y : S256x4096.Idx) (i : S8192x4096.Idx) (hi0 : (i 0).val = b * 256 + (y 0).val) (hi1 : (i 1).val = (y 1).val) :
    out0_3 (F := Ideal) x0 x1 x2 y = wholeOut a0 x1 x2 i := by
  obtain ⟨p, q, rfl⟩ : ∃ (p : Fin 256) (q : Fin 4096), y = ix2 p q := ⟨y 0, y 1, eq_ix2 y⟩
  rw [out_apply]
  unfold wholeOut rowOut
  have hq : (⟨(i 1).val, idx2_lt1 i⟩ : Fin 4096) = q := Fin.ext hi1
  rw [hq]
  have hx : (fun k : Fin 1024 => x0 (ix2 p k)) = fun k : Fin 1024 => a0 (ix2 (⟨(i 0).val, idx2_lt0 i⟩ : Fin 8192) k) :=
    funext fun k => h0 p k _ hi0
  rw [hx]

/-- The printed index maps over the grid: the first operand's and the result's blocks move with the point along the
    rows, the weight operands' blocks stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point t is rows 256 t … 256 t + 255 of its array. -/
theorem blk0_apply (c : Dev nD) (t : Fin cfg0.N) (y : S256x1024.Idx) (i : S8192x1024.Idx)
    (h0 : (i 0).val = t.val * 256 + (y 0).val) (h1 : (i 1).val = (y 1).val) :
    (iblk0 V c 0 t : Vec Ideal S256x1024 .f32) y = (V c main_v0 : S8192x1024.Idx → EReal) i := by
  obtain ⟨e0, e1, -⟩ := idx_facts t
  unfold iblk0
  rw [View.read_apply]
  show (V c main_v0 : S8192x1024.Idx → EReal) _ = _
  refine congrArg (V c main_v0 : S8192x1024.Idx → EReal) (funext fun a => Fin.ext ?_)
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- The gate weights' block at every point is their whole array. -/
theorem blk1_eq (c : Dev nD) (t : Fin cfg0.N) :
    (iblk0 V c 1 t : Vec Ideal S1024x4096 .bf16) = (V c main_v13 : S1024x4096.Idx → EReal) := by
  obtain ⟨-, -, e0, e1, -⟩ := idx_facts t
  funext y
  unfold iblk0
  rw [View.read_apply]
  show (V c main_v13 : S1024x4096.Idx → EReal) _ = _
  refine congrArg (V c main_v13 : S1024x4096.Idx → EReal) (funext fun a => Fin.ext ?_)
  match a with
  | ⟨0, _⟩ => show win0_1.index t (0 : Fin 2) * 1024 + 1 * (y 0).val = (y 0).val; omega
  | ⟨1, _⟩ => show win0_1.index t (1 : Fin 2) * 4096 + 1 * (y 1).val = (y 1).val; omega

/-- The up weights' block at every point is their whole array. -/
theorem blk2_eq (c : Dev nD) (t : Fin cfg0.N) :
    (iblk0 V c 2 t : Vec Ideal S1024x4096 .bf16) = (V c main_v26 : S1024x4096.Idx → EReal) := by
  obtain ⟨-, -, -, -, e0, e1, -⟩ := idx_facts t
  funext y
  unfold iblk0
  rw [View.read_apply]
  show (V c main_v26 : S1024x4096.Idx → EReal) _ = _
  refine congrArg (V c main_v26 : S1024x4096.Idx → EReal) (funext fun a => Fin.ext ?_)
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-- What point t writes back is block t of the whole result. -/
theorem flushed_eq (c : Dev nD) (t : Fin cfg0.N) :
    (dat0 (F := Ideal) V c).flushed 3 t
      = ((cfg0.win 3).blk t).view.read (Elt Ideal) (wholeOut (V c main_v0) (V c main_v13) (V c main_v26)) := by
  show (cfg0.win 3).cut (grid0.coords t) ((dat0 V c).after 3 t) = _
  rw [after0_3, blk1_eq, blk2_eq]
  obtain ⟨-, -, -, -, -, -, e0, e1⟩ := idx_facts t
  funext y
  rw [View.read_apply]
  show out0_3 (F := Ideal) (iblk0 V c 0 t) (V c main_v13) (V c main_v26) ((cfg0.win 3).xinj (grid0.coords t) y)
    = wholeOut (V c main_v0) (V c main_v13) (V c main_v26) (((cfg0.win 3).blk t).view.emb y)
  refine out_eq_wholeOut (iblk0 V c 0 t) (V c main_v13) (V c main_v26) (V c main_v0) t.val
    (fun p k r hr => blk0_apply V c t (ix2 p k) (ix2 r k) hr rfl) _ _ ?_ ?_
  · show win0_3.index t (0 : Fin 2) * 256 + 1 * (y 0).val = t.val * 256 + (y 0).val; omega
  · show win0_3.index t (1 : Fin 2) * 4096 + 1 * (y 1).val = (y 1).val; omega

/-- An index of the result array is in point t's block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v40).slice (win0_3.rect t)).set ↔ _
  rw [View.set_slice_whole, Rect.mem_set_unit]
  exact Iff.rfl

/-- Row r of the result lies in the block of point r / 256, which is written back. -/
theorem covered (i : S8192x4096.Idx) :
    ∃ t : Fin cfg0.N, (cfg0.win 3).flush t = true ∧ i ∈ ((cfg0.win 3).blk t).view.set := by
  have hN : cfg0.N = 32 := N_0
  have hi0 : (i 0).val < 8192 := idx2_lt0 i
  have hi1 : (i 1).val < 4096 := idx2_lt1 i
  have ht : (i 0).val / 256 < cfg0.N := lt_of_lt_of_eq (by omega : (i 0).val / 256 < 32) hN.symm
  refine ⟨⟨(i 0).val / 256, ht⟩, flush0_3 _, ?_⟩
  rw [mem_blk]
  obtain ⟨-, -, -, -, -, -, e0, e1⟩ := idx_facts ⟨(i 0).val / 256, ht⟩
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, ht⟩ (1 : Fin 2) * 4096 ≤ (i 1).val
      ∧ (i 1).val < win0_3.index ⟨(i 0).val / 256, ht⟩ (1 : Fin 2) * 4096 + 4096
    rw [e1]
    omega

/-- The first launch's result array at (r, j), from the arrays the launch finds. -/
theorem region0_arr (c : Dev nD) (r : Fin 8192) (j : Fin 4096) :
    ((dat0 (F := Ideal) V c).arrAt 3 cfg0.N : S8192x4096.Idx → EReal) (ix2 r j)
      = actq (fun j' : Fin 4096 =>
          hid (actq fun k : Fin 1024 => (V c main_v0 : S8192x1024.Idx → EReal) (ix2 r k))
              (fun k : Fin 1024 => (V c main_v13 : S1024x4096.Idx → EReal) (ix2 k j'))
              (fun k : Fin 1024 => (V c main_v26 : S1024x4096.Idx → EReal) (ix2 k j'))) j := by
  have h := (dat0 (F := Ideal) V c).arrAt_eq_of_cover 3 (wholeOut (V c main_v0) (V c main_v13) (V c main_v26))
    (fun t _ => flushed_eq V c t) covered
  exact congrFun h (ix2 r j)

end Cert.KernelIdeal.Region0

end
-- ==== Proof.Region1.lean ====
/-
  The second launch read at an entry: a plain matrix product of the two arrays it finds.

  Point `t` of the grid takes rows `256 t … 256 t + 255` of the left array (all 4096 columns) and the whole right
  array, and writes back the same rows of the product; the 32 points' row blocks tile the result, so entry (r, cc) of
  the result array is the sum over j of left (r, j) times right (j, cc).
-/
import proofs.«171611_j41403484733540_1_alg».proof.Proof.Gen.KernelIdeal.Frame
import proofs.«171611_j41403484733540_1_alg».proof.Proof.Spec
import proofs.«171611_j41403484733540_1_alg».proof.Proof.LibMatRows
import Idealize.ShloMosaic.Lib.ValueIdx
import Idealize.ShloMosaic.Lib.Pipeline.Value
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Ffn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store at an entry of the block: the product of the two loaded blocks. -/
theorem out_apply (x0 : Vec Ideal S256x4096 .bf16) (x1 : Vec Ideal S4096x1024 .bf16) (p : Fin 256) (q : Fin 1024) :
    out1_2 (F := Ideal) x0 x1 (ix2 p q) = ∑ j : Fin 4096, x0 (ix2 p j) * x1 (ix2 j q) := by
  unfold out1_2
  rw [View.canon_unit_zero hz]
  simp only [View.ld_unit_zero (S := S256x4096) hz, View.ld_unit_zero (S := S4096x1024) hz]
  unfold k1_pay1
  simp only [shapeCast_self]
  exact MatRows.matmul_plain_apply (M := 256) (K := 4096) (N := 1024) none x0 x1 p q

/-- Where each window's block sits at point `t`: the row windows at block row `t`, the right operand at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `256 t …` of the left array. -/
theorem iblk_left (c : Dev nD) (t : Fin cfg1.N) (y : S256x4096.Idx) (k : S8192x4096.Idx)
    (hk0 : (k 0).val = 256 * t.val + (y 0).val) (hk1 : (k 1).val = (y 1).val) :
    (iblk1 V c 0 t : Vec Ideal S256x4096 .bf16) y = (V c main_v40 : S8192x4096.Idx → EReal) k := by
  obtain ⟨e0, e1, -, -, -, -⟩ := idx_facts t
  unfold iblk1
  rw [View.read_apply]
  show V c main_v40 _ = V c main_v40 _
  refine congrArg (V c main_v40) ?_
  funext a
  apply Fin.ext
  match a with
  | ⟨0, _⟩ => show win1_0.index t (0 : Fin 2) * 256 + 1 * (y 0).val = (k 0).val; rw [e0, hk0]; omega
  | ⟨1, _⟩ => show win1_0.index t (1 : Fin 2) * 4096 + 1 * (y 1).val = (k 1).val; rw [e1, hk1]; omega

/-- The right window's block at every point is the whole right array. -/
theorem iblk_right (c : Dev nD) (t : Fin cfg1.N) (y : S4096x1024.Idx) :
    (iblk1 V c 1 t : Vec Ideal S4096x1024 .bf16) y = (V c main_v39 : S4096x1024.Idx → EReal) y := by
  obtain ⟨-, -, e0, e1, -, -⟩ := idx_facts t
  unfold iblk1
  rw [View.read_apply]
  show V c main_v39 _ = V c main_v39 _
  refine congrArg (V c main_v39) ?_
  funext a
  apply Fin.ext
  match a with
  | ⟨0, _⟩ => show win1_1.index t (0 : Fin 2) * 4096 + 1 * (y 0).val = (y 0).val; rw [e0]; omega
  | ⟨1, _⟩ => show win1_1.index t (1 : Fin 2) * 1024 + 1 * (y 1).val = (y 1).val; rw [e1]; omega

/-- The product of the two arrays the launch finds, as one function of the result's index. -/
def prod (c : Dev nD) : S8192x1024.Idx → EReal := fun i =>
  ∑ j : Fin 4096, rd (s := S8192x4096) (V c main_v40) (ix2 (⟨(i 0).val, (i 0).isLt⟩ : Fin 8192) j)
    * rd (s := S4096x1024) (V c main_v39) (ix2 j (⟨(i 1).val, (i 1).isLt⟩ : Fin 1024))

/-- What point `t` writes back is block `t` of the product. -/
theorem flushed_eq (c : Dev nD) (t : Fin cfg1.N) :
    (dat1 (F := Ideal) V c).flushed 2 t = ((cfg1.win 2).blk t).view.read (Elt Ideal) (prod V c) := by
  show (cfg1.win 2).cut (grid1.coords t) ((dat1 V c).after 2 t) = _
  rw [after1_2]
  obtain ⟨-, -, -, -, e0, e1⟩ := idx_facts t
  funext y
  obtain ⟨p, q, rfl⟩ : ∃ (p : Fin 256) (q : Fin 1024), y = ix2 p q := ⟨y 0, y 1, eq_ix2 y⟩
  refine (out_apply (iblk1 V c 0 t) (iblk1 V c 1 t) p q).trans ?_
  rw [View.read_apply]
  unfold prod
  refine Finset.sum_congr rfl fun j _ => ?_
  refine congrArg₂ (· * ·) ?_ ?_
  · refine iblk_left V c t (ix2 p j) _ ?_ rfl
    show win1_2.index t (0 : Fin 2) * 256 + 1 * p.val = 256 * t.val + p.val
    rw [e0]; omega
  · refine (iblk_right V c t (ix2 j q)).trans ?_
    refine congrArg (V c main_v39) ?_
    funext a
    apply Fin.ext
    match a with
    | ⟨0, _⟩ => rfl
    | ⟨1, _⟩ => show q.val = win1_2.index t (1 : Fin 2) * 1024 + 1 * q.val; rw [e1]; omega

/-- An index of the result array is in point `t`'s block iff each coordinate is in the block's range. -/
theorem mem_blk (t : Fin cfg1.N) (i : S8192x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v41).slice (win1_2.rect t)).set ↔ _
  rw [View.set_slice_whole, Rect.mem_set_unit]
  exact Iff.rfl

/-- Row `r` of the result is in the block of point `r / 256`. -/
theorem cover (i : S8192x1024.Idx) : ∃ t : Fin cfg1.N, (cfg1.win 2).flush t = true ∧ i ∈ ((cfg1.win 2).blk t).view.set := by
  have hN : cfg1.N = 32 := N_1
  have hi0 : (i 0).val < 8192 := (i 0).isLt
  have hi1 : (i 1).val < 1024 := (i 1).isLt
  refine ⟨⟨(i 0).val / 256, by rw [hN]; omega⟩, flush1_2 _, ?_⟩
  rw [mem_blk]
  obtain ⟨-, -, -, -, e0, e1⟩ := idx_facts ⟨(i 0).val / 256, by rw [hN]; omega⟩
  intro a
  match a with
  | ⟨0, _⟩ => show win1_2.index _ (0 : Fin 2) * 256 ≤ (i 0).val ∧ (i 0).val < win1_2.index _ (0 : Fin 2) * 256 + 256; rw [e0]; show (i 0).val / 256 * 256 ≤ (i 0).val ∧ (i 0).val < (i 0).val / 256 * 256 + 256; omega
  | ⟨1, _⟩ => show win1_2.index _ (1 : Fin 2) * 1024 ≤ (i 1).val ∧ (i 1).val < win1_2.index _ (1 : Fin 2) * 1024 + 1024; rw [e1]; omega

/-- The second launch's result array is the product. -/
theorem final (c : Dev nD) : (dat1 (F := Ideal) V c).arrAt 2 cfg1.N = prod V c :=
  (dat1 V c).arrAt_eq_of_cover 2 (prod V c) (fun t _ => flushed_eq V c t) cover

/-- The second launch's result array at (r, cc), from the arrays the launch finds. -/
theorem region1_arr (c : Dev nD) (r : Fin 8192) (cc : Fin 1024) :
    rd (s := S8192x1024) ((dat1 (F := Ideal) V c).arrAt 2 cfg1.N) (ix2 r cc)
      = ∑ j : Fin 4096, rd (s := S8192x4096) (V c main_v40) (ix2 r j) * rd (s := S4096x1024) (V c main_v39) (ix2 j cc) := by
  rw [final V c]
  rfl

end Cert.KernelIdeal.Region1

end
-- ==== Proof.KernelValue.lean ====
/-
  The kernel program's result read at an entry: the quantized feed-forward block of the four argument arrays.

  The result is the second launch's array with its rows unflattened; that array is the product of the first launch's
  array with the down weights; the first launch's array is, row by row, the quantized hidden vector of the input row
  and the gate and up weights; and the host operations before the launches leave the input as rows and the three
  weight matrices quantized and transposed.
-/
import proofs.«171611_j41403484733540_1_alg».proof.Proof.Gen.KernelIdeal.Frame
import proofs.«171611_j41403484733540_1_alg».proof.Proof.Spec
import proofs.«171611_j41403484733540_1_alg».proof.Proof.KernelHost
import proofs.«171611_j41403484733540_1_alg».proof.Proof.Region0
import proofs.«171611_j41403484733540_1_alg».proof.Proof.Region1
import Idealize.ShloMosaic.Lib.ValueIdx

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Ffn Cert.KernelIdeal.HostVal

variable (m : (ℓ : Loc nD τ sig) → Buf (Elt Ideal) ℓ) (ρ : Dev nD → PrngReg)

/-- The second launch's result array, as the run leaves it. -/
theorem W15_v41 (c : Dev nD) :
    W15 (F := Ideal) m ρ c (Proc.devRef .tc main_v41) = (dat1 (F := Ideal) (V14 m ρ) c).arrAt 2 cfg1.N :=
  W15_arr m ρ c 2

/-- The first launch's result array, as the second launch finds it. -/
theorem V14_v40 (c : Dev nD) :
    V14 (F := Ideal) m ρ c main_v40 = (dat0 (F := Ideal) (V13 m ρ) c).arrAt 3 cfg0.N :=
  W14_arr m ρ c 3

/-- The down weights pass the first launch untouched. -/
theorem V14_v39 (c : Dev nD) : V14 (F := Ideal) m ρ c main_v39 = V13 (F := Ideal) m ρ c main_v39 :=
  W14_of_ne m ρ c main_v39 (by decide)

/-- The kernel program's result at (b, s, cc). -/
theorem kernel_eq (c : Dev nD) (b : Fin 4) (s : Fin 2048) (cc : Fin 1024) :
    (W16 (F := Ideal) m ρ c (Proc.devRef .tc main_v42) : S4x2048x1024.Idx → EReal) (ix3 b s cc)
      = G (fun b s k => (m ((c : Thread nD τ).loc main_arg0) : S4x2048x1024.Idx → EReal) (ix3 b s k))
          (fun j k => (m ((c : Thread nD τ).loc main_arg1) : S4096x1024.Idx → EReal) (ix2 j k))
          (fun j k => (m ((c : Thread nD τ).loc main_arg2) : S4096x1024.Idx → EReal) (ix2 j k))
          (fun c' j => (m ((c : Thread nD τ).loc main_arg3) : S1024x4096.Idx → EReal) (ix2 c' j))
          (wtot (fun i : S4096x1024.Idx => (m ((c : Thread nD τ).loc main_arg1) i : EReal)))
          (wtot (fun i : S4096x1024.Idx => (m ((c : Thread nD τ).loc main_arg2) i : EReal)))
          (wtot (fun i : S1024x4096.Idx => (m ((c : Thread nD τ).loc main_arg3) i : EReal))) b s cc := by
  refine (W16_v42 m ρ c b s cc).trans ?_
  rw [W15_v41 m ρ c]
  refine (Region1.region1_arr (V14 m ρ) c (rowOf b s) cc).trans ?_
  unfold G ffnRow
  refine Finset.sum_congr rfl fun j _ => ?_
  refine congrArg₂ (· * ·) ?_ ?_
  · show (V14 (F := Ideal) m ρ c main_v40 : S8192x4096.Idx → EReal) (ix2 (rowOf b s) j) = _
    rw [V14_v40 m ρ c]
    refine (Region0.region0_arr (V13 m ρ) c (rowOf b s) j).trans ?_
    unfold hrow
    refine congrArg (fun f => actq f j) ?_
    funext j'
    have e0 : (fun k : Fin 1024 => (V13 (F := Ideal) m ρ c main_v0 : S8192x1024.Idx → EReal) (ix2 (rowOf b s) k))
        = fun k : Fin 1024 => (m ((c : Thread nD τ).loc main_arg0) : S4x2048x1024.Idx → EReal) (ix3 b s k) :=
      funext fun k => W13_v0 m ρ c b s k
    have e1 : (fun k : Fin 1024 => (V13 (F := Ideal) m ρ c main_v13 : S1024x4096.Idx → EReal) (ix2 k j'))
        = fun k : Fin 1024 => q3 (wscale (wtot (fun i : S4096x1024.Idx => (m ((c : Thread nD τ).loc main_arg1) i : EReal))))
            ((m ((c : Thread nD τ).loc main_arg1) : S4096x1024.Idx → EReal) (ix2 j' k)) :=
      funext fun k => W13_v13 m ρ c k j'
    have e2 : (fun k : Fin 1024 => (V13 (F := Ideal) m ρ c main_v26 : S1024x4096.Idx → EReal) (ix2 k j'))
        = fun k : Fin 1024 => q3 (wscale (wtot (fun i : S4096x1024.Idx => (m ((c : Thread nD τ).loc main_arg2) i : EReal))))
            ((m ((c : Thread nD τ).loc main_arg2) : S4096x1024.Idx → EReal) (ix2 j' k)) :=
      funext fun k => W13_v26 m ρ c k j'
    rw [e0, e1, e2]
  · show (V14 (F := Ideal) m ρ c main_v39 : S4096x1024.Idx → EReal) (ix2 j cc) = _
    rw [V14_v39 m ρ c]
    exact W13_v39 m ρ c j cc

end Cert.KernelIdeal.KernelValue

end
-- ==== Proof.RefRun.lean ====
/-
  The reference program's run: every weakly fair execution of @main terminates, nothing faulting, with the result
  buffer at the composed value of its operations, as a function of the four argument arrays, and the arguments unchanged.

  The program is a straight line of host operations, so its run is the fold of those operations over the launch
  memory.  The operations of the functions the compiler outlined (the clips, the roundings, silu) reach their
  buffers through typed references, which transport a value to the buffer's type and back; every such reference
  here names a buffer of exactly the value's type, so the transports are identities and each such operation is the
  plain operation at the plain buffers (`ops_eq`).  Over the plain list the fold at the result's buffer unfolds to
  the composition of the operations' functions, which is the last stage's value.
-/
import proofs.«171611_j41403484733540_1_alg».proof.Proof.RefRunP
import proofs.«171611_j41403484733540_1_alg».proof.Proof.RefReadP
import Idealize.ShloMosaic.Lib.StableHlo.Run

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- @main's operations in order, each outlined function's operation written at the plain buffers its typed references name. -/
abbrev opsPlain : List (HloOp τ sig (Elt F)) :=
  [ unary main_arg0 main_v0 (Host.absf : (⟨S4x2048x1024, .f32⟩ : BufTy).Contents (Elt F) → (⟨S4x2048x1024, .f32⟩ : BufTy).Contents (Elt F)),
    nullary main_cst (constant S_ .f32 0xFF800000#32),
    binary main_v0 main_cst main_v1 ((fun x v => Host.reduce FloatOps.maximumf x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 ((id) : (⟨S_, .f32⟩ : BufTy).Contents (Elt F) → (⟨S_, .f32⟩ : BufTy).Contents (Elt F)),
    unary main_call0_v0 main_call0_v1 (((broadcastInDim S4x2048x1 ![] bcast_S_S4x2048x1)) : (⟨S_, .f32⟩ : BufTy).Contents (Elt F) → (⟨S4x2048x1, .f32⟩ : BufTy).Contents (Elt F)),
    binary main_call0_v1 main_v2 main_v3 ((maximumf) : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_arg0 main_v6 main_v7 (mulf : (⟨S4x2048x1024, .f32⟩ : BufTy).Contents (Elt F) → (⟨S4x2048x1024, .f32⟩ : BufTy).Contents (Elt F) → (⟨S4x2048x1024, .f32⟩ : BufTy).Contents (Elt F)),
    unary main_v7 main_v8 ((Host.roundeven) : (⟨S4x2048x1024, .f32⟩ : BufTy).Contents (Elt F) → (⟨S4x2048x1024, .f32⟩ : BufTy).Contents (Elt F)),
    nullary main_cst_2 (constant S_ .f32 0xC3000000#32),
    nullary main_cst_3 (constant S_ .f32 0x42FE0000#32),
    unary main_cst_2 main_call2_v0 ((id) : (⟨S_, .f32⟩ : BufTy).Contents (Elt F) → (⟨S_, .f32⟩ : BufTy).Contents (Elt F)),
    unary main_call2_v0 main_call2_v1 (((broadcastInDim S4x2048x1024 ![] bcast_S_S4x2048x1024)) : (⟨S_, .f32⟩ : BufTy).Contents (Elt F) → (⟨S4x2048x1024, .f32⟩ : BufTy).Contents (Elt F)),
    binary main_call2_v1 main_v8 main_call2_v2 ((maximumf) : (⟨S4x2048x1024, .f32⟩ : BufTy).Contents (Elt F) → (⟨S4x2048x1024, .f32⟩ : BufTy).Contents (Elt F) → (⟨S4x2048x1024, .f32⟩ : BufTy).Contents (Elt F)),
    unary main_cst_3 main_call2_v3 ((id) : (⟨S_, .f32⟩ : BufTy).Contents (Elt F) → (⟨S_, .f32⟩ : BufTy).Contents (Elt F)),
    unary main_call2_v3 main_call2_v4 (((broadcastInDim S4x2048x1024 ![] bcast_S_S4x2048x1024)) : (⟨S_, .f32⟩ : BufTy).Contents (Elt F) → (⟨S4x2048x1024, .f32⟩ : BufTy).Contents (Elt F)),
    binary main_call2_v4 main_call2_v2 main_v9 ((minimumf) : (⟨S4x2048x1024, .f32⟩ : BufTy).Contents (Elt F) → (⟨S4x2048x1024, .f32⟩ : BufTy).Contents (Elt F) → (⟨S4x2048x1024, .f32⟩ : BufTy).Contents (Elt F)),
    unary main_v5 main_v10 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v9 main_v10 main_v11 (Host.divf : (⟨S4x2048x1024, .f32⟩ : BufTy).Contents (Elt F) → (⟨S4x2048x1024, .f32⟩ : BufTy).Contents (Elt F) → (⟨S4x2048x1024, .f32⟩ : BufTy).Contents (Elt F)),
    binary main_v11 main_arg0 main_v12 (subf : (⟨S4x2048x1024, .f32⟩ : BufTy).Contents (Elt F) → (⟨S4x2048x1024, .f32⟩ : BufTy).Contents (Elt F) → (⟨S4x2048x1024, .f32⟩ : BufTy).Contents (Elt F)),
    binary main_arg0 main_v12 main_v13 (addf : (⟨S4x2048x1024, .f32⟩ : BufTy).Contents (Elt F) → (⟨S4x2048x1024, .f32⟩ : BufTy).Contents (Elt F) → (⟨S4x2048x1024, .f32⟩ : BufTy).Contents (Elt F)),
    unary main_arg1 main_v14 (Host.absf : (⟨S4096x1024, .f32⟩ : BufTy).Contents (Elt F) → (⟨S4096x1024, .f32⟩ : BufTy).Contents (Elt F)),
    nullary main_cst_4 (constant S_ .f32 0x00000000#32),
    binary main_v14 main_cst_4 main_v15 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    nullary main_cst_5 (constant S_ .f32 0x4A800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 ((id) : (⟨S_, .f32⟩ : BufTy).Contents (Elt F) → (⟨S_, .f32⟩ : BufTy).Contents (Elt F)),
    binary main_call3_v0 main_v16 main_v17 ((maximumf) : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S4096x1024 ![] bcast_S_S4096x1024 : (⟨S_, .f32⟩ : BufTy).Contents (Elt F) → (⟨S4096x1024, .f32⟩ : BufTy).Contents (Elt F)),
    binary main_arg1 main_v19 main_v20 (mulf : (⟨S4096x1024, .f32⟩ : BufTy).Contents (Elt F) → (⟨S4096x1024, .f32⟩ : BufTy).Contents (Elt F) → (⟨S4096x1024, .f32⟩ : BufTy).Contents (Elt F)),
    unary main_v20 main_v21 ((Host.roundeven) : (⟨S4096x1024, .f32⟩ : BufTy).Contents (Elt F) → (⟨S4096x1024, .f32⟩ : BufTy).Contents (Elt F)),
    nullary main_cst_8 (constant S_ .f32 0xBF800000#32),
    nullary main_cst_9 (constant S_ .f32 0x3F800000#32),
    unary main_cst_8 main_call5_v0 ((id) : (⟨S_, .f32⟩ : BufTy).Contents (Elt F) → (⟨S_, .f32⟩ : BufTy).Contents (Elt F)),
    unary main_call5_v0 main_call5_v1 (((broadcastInDim S4096x1024 ![] bcast_S_S4096x1024)) : (⟨S_, .f32⟩ : BufTy).Contents (Elt F) → (⟨S4096x1024, .f32⟩ : BufTy).Contents (Elt F)),
    binary main_call5_v1 main_v21 main_call5_v2 ((maximumf) : (⟨S4096x1024, .f32⟩ : BufTy).Contents (Elt F) → (⟨S4096x1024, .f32⟩ : BufTy).Contents (Elt F) → (⟨S4096x1024, .f32⟩ : BufTy).Contents (Elt F)),
    unary main_cst_9 main_call5_v3 ((id) : (⟨S_, .f32⟩ : BufTy).Contents (Elt F) → (⟨S_, .f32⟩ : BufTy).Contents (Elt F)),
    unary main_call5_v3 main_call5_v4 (((broadcastInDim S4096x1024 ![] bcast_S_S4096x1024)) : (⟨S_, .f32⟩ : BufTy).Contents (Elt F) → (⟨S4096x1024, .f32⟩ : BufTy).Contents (Elt F)),
    binary main_call5_v4 main_call5_v2 main_v22 ((minimumf) : (⟨S4096x1024, .f32⟩ : BufTy).Contents (Elt F) → (⟨S4096x1024, .f32⟩ : BufTy).Contents (Elt F) → (⟨S4096x1024, .f32⟩ : BufTy).Contents (Elt F)),
    unary main_v18 main_v23 (broadcastInDim S4096x1024 ![] bcast_S_S4096x1024 : (⟨S_, .f32⟩ : BufTy).Contents (Elt F) → (⟨S4096x1024, .f32⟩ : BufTy).Contents (Elt F)),
    binary main_v22 main_v23 main_v24 (Host.divf : (⟨S4096x1024, .f32⟩ : BufTy).Contents (Elt F) → (⟨S4096x1024, .f32⟩ : BufTy).Contents (Elt F) → (⟨S4096x1024, .f32⟩ : BufTy).Contents (Elt F)),
    binary main_v24 main_arg1 main_v25 (subf : (⟨S4096x1024, .f32⟩ : BufTy).Contents (Elt F) → (⟨S4096x1024, .f32⟩ : BufTy).Contents (Elt F) → (⟨S4096x1024, .f32⟩ : BufTy).Contents (Elt F)),
    binary main_arg1 main_v25 main_v26 (addf : (⟨S4096x1024, .f32⟩ : BufTy).Contents (Elt F) → (⟨S4096x1024, .f32⟩ : BufTy).Contents (Elt F) → (⟨S4096x1024, .f32⟩ : BufTy).Contents (Elt F)),
    binary main_v13 main_v26 main_v27 ((fun l r => Host.dotGeneral dot_S4x2048x1024_S4096x1024_S4x2048x4096_2_1_01_0_n_n none l r) : (⟨S4x2048x1024, .f32⟩ : BufTy).Contents (Elt F) → (⟨S4096x1024, .f32⟩ : BufTy).Contents (Elt F) → (⟨S4x2048x4096, .f32⟩ : BufTy).Contents (Elt F)),
    unary main_v27 main_call6_v0 ((Host.negf) : (⟨S4x2048x4096, .f32⟩ : BufTy).Contents (Elt F) → (⟨S4x2048x4096, .f32⟩ : BufTy).Contents (Elt F)),
    unary main_call6_v0 main_call6_v1 ((Host.exp) : (⟨S4x2048x4096, .f32⟩ : BufTy).Contents (Elt F) → (⟨S4x2048x4096, .f32⟩ : BufTy).Contents (Elt F)),
    nullary main_call6_cst ((constant S_ .f32 0x3F800000#32)),
    unary main_call6_cst main_call6_v2 (((broadcastInDim S4x2048x4096 ![] bcast_S_S4x2048x4096)) : (⟨S_, .f32⟩ : BufTy).Contents (Elt F) → (⟨S4x2048x4096, .f32⟩ : BufTy).Contents (Elt F)),
    binary main_call6_v2 main_call6_v1 main_call6_v3 ((addf) : (⟨S4x2048x4096, .f32⟩ : BufTy).Contents (Elt F) → (⟨S4x2048x4096, .f32⟩ : BufTy).Contents (Elt F) → (⟨S4x2048x4096, .f32⟩ : BufTy).Contents (Elt F)),
    nullary main_call6_cst_0 ((constant S_ .f32 0x3F800000#32)),
    unary main_call6_cst_0 main_call6_v4 (((broadcastInDim S4x2048x4096 ![] bcast_S_S4x2048x4096)) : (⟨S_, .f32⟩ : BufTy).Contents (Elt F) → (⟨S4x2048x4096, .f32⟩ : BufTy).Contents (Elt F)),
    binary main_call6_v4 main_call6_v3 main_call6_v5 ((Host.divf) : (⟨S4x2048x4096, .f32⟩ : BufTy).Contents (Elt F) → (⟨S4x2048x4096, .f32⟩ : BufTy).Contents (Elt F) → (⟨S4x2048x4096, .f32⟩ : BufTy).Contents (Elt F)),
    binary main_v27 main_call6_v5 main_v28 ((mulf) : (⟨S4x2048x4096, .f32⟩ : BufTy).Contents (Elt F) → (⟨S4x2048x4096, .f32⟩ : BufTy).Contents (Elt F) → (⟨S4x2048x4096, .f32⟩ : BufTy).Contents (Elt F)),
    unary main_arg0 main_v29 (Host.absf : (⟨S4x2048x1024, .f32⟩ : BufTy).Contents (Elt F) → (⟨S4x2048x1024, .f32⟩ : BufTy).Contents (Elt F)),
    nullary main_cst_10 (constant S_ .f32 0xFF800000#32),
    binary main_v29 main_cst_10 main_v30 ((fun x v => Host.reduce FloatOps.maximumf x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v30 main_v31 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x3727C5AC#32),
    unary main_cst_11 main_call7_v0 ((id) : (⟨S_, .f32⟩ : BufTy).Contents (Elt F) → (⟨S_, .f32⟩ : BufTy).Contents (Elt F)),
    unary main_call7_v0 main_call7_v1 (((broadcastInDim S4x2048x1 ![] bcast_S_S4x2048x1)) : (⟨S_, .f32⟩ : BufTy).Contents (Elt F) → (⟨S4x2048x1, .f32⟩ : BufTy).Contents (Elt F)),
    binary main_call7_v1 main_v31 main_v32 ((maximumf) : (⟨S4x2048x1, .f32⟩ : BufTy).Contents (Elt F) → (⟨S4x2048x1, .f32⟩ : BufTy).Contents (Elt F) → (⟨S4x2048x1, .f32⟩ : BufTy).Contents (Elt F)),
    nullary main_cst_12 (constant S_ .f32 0x42FE0000#32),
    unary main_cst_12 main_v33 (broadcastInDim S4x2048x1 ![] bcast_S_S4x2048x1 : (⟨S_, .f32⟩ : BufTy).Contents (Elt F) → (⟨S4x2048x1, .f32⟩ : BufTy).Contents (Elt F)),
    binary main_v33 main_v32 main_v34 (Host.divf : (⟨S4x2048x1, .f32⟩ : BufTy).Contents (Elt F) → (⟨S4x2048x1, .f32⟩ : BufTy).Contents (Elt F) → (⟨S4x2048x1, .f32⟩ : BufTy).Contents (Elt F)),
    unary main_v34 main_v35 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_arg0 main_v35 main_v36 (mulf : (⟨S4x2048x1024, .f32⟩ : BufTy).Contents (Elt F) → (⟨S4x2048x1024, .f32⟩ : BufTy).Contents (Elt F) → (⟨S4x2048x1024, .f32⟩ : BufTy).Contents (Elt F)),
    unary main_v36 main_v37 ((Host.roundeven) : (⟨S4x2048x1024, .f32⟩ : BufTy).Contents (Elt F) → (⟨S4x2048x1024, .f32⟩ : BufTy).Contents (Elt F)),
    nullary main_cst_13 (constant S_ .f32 0xC3000000#32),
    nullary main_cst_14 (constant S_ .f32 0x42FE0000#32),
    unary main_cst_13 main_call9_v0 ((id) : (⟨S_, .f32⟩ : BufTy).Contents (Elt F) → (⟨S_, .f32⟩ : BufTy).Contents (Elt F)),
    unary main_call9_v0 main_call9_v1 (((broadcastInDim S4x2048x1024 ![] bcast_S_S4x2048x1024)) : (⟨S_, .f32⟩ : BufTy).Contents (Elt F) → (⟨S4x2048x1024, .f32⟩ : BufTy).Contents (Elt F)),
    binary main_call9_v1 main_v37 main_call9_v2 ((maximumf) : (⟨S4x2048x1024, .f32⟩ : BufTy).Contents (Elt F) → (⟨S4x2048x1024, .f32⟩ : BufTy).Contents (Elt F) → (⟨S4x2048x1024, .f32⟩ : BufTy).Contents (Elt F)),
    unary main_cst_14 main_call9_v3 ((id) : (⟨S_, .f32⟩ : BufTy).Contents (Elt F) → (⟨S_, .f32⟩ : BufTy).Contents (Elt F)),
    unary main_call9_v3 main_call9_v4 (((broadcastInDim S4x2048x1024 ![] bcast_S_S4x2048x1024)) : (⟨S_, .f32⟩ : BufTy).Contents (Elt F) → (⟨S4x2048x1024, .f32⟩ : BufTy).Contents (Elt F)),
    binary main_call9_v4 main_call9_v2 main_v38 ((minimumf) : (⟨S4x2048x1024, .f32⟩ : BufTy).Contents (Elt F) → (⟨S4x2048x1024, .f32⟩ : BufTy).Contents (Elt F) → (⟨S4x2048x1024, .f32⟩ : BufTy).Contents (Elt F)),
    unary main_v34 main_v39 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v38 main_v39 main_v40 (Host.divf : (⟨S4x2048x1024, .f32⟩ : BufTy).Contents (Elt F) → (⟨S4x2048x1024, .f32⟩ : BufTy).Contents (Elt F) → (⟨S4x2048x1024, .f32⟩ : BufTy).Contents (Elt F)),
    binary main_v40 main_arg0 main_v41 (subf : (⟨S4x2048x1024, .f32⟩ : BufTy).Contents (Elt F) → (⟨S4x2048x1024, .f32⟩ : BufTy).Contents (Elt F) → (⟨S4x2048x1024, .f32⟩ : BufTy).Contents (Elt F)),
    binary main_arg0 main_v41 main_v42 (addf : (⟨S4x2048x1024, .f32⟩ : BufTy).Contents (Elt F) → (⟨S4x2048x1024, .f32⟩ : BufTy).Contents (Elt F) → (⟨S4x2048x1024, .f32⟩ : BufTy).Contents (Elt F)),
    unary main_arg2 main_v43 (Host.absf : (⟨S4096x1024, .f32⟩ : BufTy).Contents (Elt F) → (⟨S4096x1024, .f32⟩ : BufTy).Contents (Elt F)),
    nullary main_cst_15 (constant S_ .f32 0x00000000#32),
    binary main_v43 main_cst_15 main_v44 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    nullary main_cst_16 (constant S_ .f32 0x4A800000#32),
    binary main_v44 main_cst_16 main_v45 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    unary main_cst_17 main_call10_v0 ((id) : (⟨S_, .f32⟩ : BufTy).Contents (Elt F) → (⟨S_, .f32⟩ : BufTy).Contents (Elt F)),
    binary main_call10_v0 main_v45 main_v46 ((maximumf) : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S4096x1024 ![] bcast_S_S4096x1024 : (⟨S_, .f32⟩ : BufTy).Contents (Elt F) → (⟨S4096x1024, .f32⟩ : BufTy).Contents (Elt F)),
    binary main_arg2 main_v48 main_v49 (mulf : (⟨S4096x1024, .f32⟩ : BufTy).Contents (Elt F) → (⟨S4096x1024, .f32⟩ : BufTy).Contents (Elt F) → (⟨S4096x1024, .f32⟩ : BufTy).Contents (Elt F)),
    unary main_v49 main_v50 ((Host.roundeven) : (⟨S4096x1024, .f32⟩ : BufTy).Contents (Elt F) → (⟨S4096x1024, .f32⟩ : BufTy).Contents (Elt F)),
    nullary main_cst_19 (constant S_ .f32 0xBF800000#32),
    nullary main_cst_20 (constant S_ .f32 0x3F800000#32),
    unary main_cst_19 main_call12_v0 ((id) : (⟨S_, .f32⟩ : BufTy).Contents (Elt F) → (⟨S_, .f32⟩ : BufTy).Contents (Elt F)),
    unary main_call12_v0 main_call12_v1 (((broadcastInDim S4096x1024 ![] bcast_S_S4096x1024)) : (⟨S_, .f32⟩ : BufTy).Contents (Elt F) → (⟨S4096x1024, .f32⟩ : BufTy).Contents (Elt F)),
    binary main_call12_v1 main_v50 main_call12_v2 ((maximumf) : (⟨S4096x1024, .f32⟩ : BufTy).Contents (Elt F) → (⟨S4096x1024, .f32⟩ : BufTy).Contents (Elt F) → (⟨S4096x1024, .f32⟩ : BufTy).Contents (Elt F)),
    unary main_cst_20 main_call12_v3 ((id) : (⟨S_, .f32⟩ : BufTy).Contents (Elt F) → (⟨S_, .f32⟩ : BufTy).Contents (Elt F)),
    unary main_call12_v3 main_call12_v4 (((broadcastInDim S4096x1024 ![] bcast_S_S4096x1024)) : (⟨S_, .f32⟩ : BufTy).Contents (Elt F) → (⟨S4096x1024, .f32⟩ : BufTy).Contents (Elt F)),
    binary main_call12_v4 main_call12_v2 main_v51 ((minimumf) : (⟨S4096x1024, .f32⟩ : BufTy).Contents (Elt F) → (⟨S4096x1024, .f32⟩ : BufTy).Contents (Elt F) → (⟨S4096x1024, .f32⟩ : BufTy).Contents (Elt F)),
    unary main_v47 main_v52 (broadcastInDim S4096x1024 ![] bcast_S_S4096x1024 : (⟨S_, .f32⟩ : BufTy).Contents (Elt F) → (⟨S4096x1024, .f32⟩ : BufTy).Contents (Elt F)),
    binary main_v51 main_v52 main_v53 (Host.divf : (⟨S4096x1024, .f32⟩ : BufTy).Contents (Elt F) → (⟨S4096x1024, .f32⟩ : BufTy).Contents (Elt F) → (⟨S4096x1024, .f32⟩ : BufTy).Contents (Elt F)),
    binary main_v53 main_arg2 main_v54 (subf : (⟨S4096x1024, .f32⟩ : BufTy).Contents (Elt F) → (⟨S4096x1024, .f32⟩ : BufTy).Contents (Elt F) → (⟨S4096x1024, .f32⟩ : BufTy).Contents (Elt F)),
    binary main_arg2 main_v54 main_v55 (addf : (⟨S4096x1024, .f32⟩ : BufTy).Contents (Elt F) → (⟨S4096x1024, .f32⟩ : BufTy).Contents (Elt F) → (⟨S4096x1024, .f32⟩ : BufTy).Contents (Elt F)),
    binary main_v42 main_v55 main_v56 ((fun l r => Host.dotGeneral dot_S4x2048x1024_S4096x1024_S4x2048x4096_2_1_01_0_n_n none l r) : (⟨S4x2048x1024, .f32⟩ : BufTy).Contents (Elt F) → (⟨S4096x1024, .f32⟩ : BufTy).Contents (Elt F) → (⟨S4x2048x4096, .f32⟩ : BufTy).Contents (Elt F)),
    binary main_v28 main_v56 main_v57 (mulf : (⟨S4x2048x4096, .f32⟩ : BufTy).Contents (Elt F) → (⟨S4x2048x4096, .f32⟩ : BufTy).Contents (Elt F) → (⟨S4x2048x4096, .f32⟩ : BufTy).Contents (Elt F)),
    unary main_v57 main_v58 (Host.absf : (⟨S4x2048x4096, .f32⟩ : BufTy).Contents (Elt F) → (⟨S4x2048x4096, .f32⟩ : BufTy).Contents (Elt F)),
    nullary main_cst_21 (constant S_ .f32 0xFF800000#32),
    binary main_v58 main_cst_21 main_v59 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v59 main_v60 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_22 (constant S_ .f32 0x3727C5AC#32),
    unary main_cst_22 main_call13_v0 ((id) : (⟨S_, .f32⟩ : BufTy).Contents (Elt F) → (⟨S_, .f32⟩ : BufTy).Contents (Elt F)),
    unary main_call13_v0 main_call13_v1 (((broadcastInDim S4x2048x1 ![] bcast_S_S4x2048x1)) : (⟨S_, .f32⟩ : BufTy).Contents (Elt F) → (⟨S4x2048x1, .f32⟩ : BufTy).Contents (Elt F)),
    binary main_call13_v1 main_v60 main_v61 ((maximumf) : (⟨S4x2048x1, .f32⟩ : BufTy).Contents (Elt F) → (⟨S4x2048x1, .f32⟩ : BufTy).Contents (Elt F) → (⟨S4x2048x1, .f32⟩ : BufTy).Contents (Elt F)),
    nullary main_cst_23 (constant S_ .f32 0x42FE0000#32),
    unary main_cst_23 main_v62 (broadcastInDim S4x2048x1 ![] bcast_S_S4x2048x1 : (⟨S_, .f32⟩ : BufTy).Contents (Elt F) → (⟨S4x2048x1, .f32⟩ : BufTy).Contents (Elt F)),
    binary main_v62 main_v61 main_v63 (Host.divf : (⟨S4x2048x1, .f32⟩ : BufTy).Contents (Elt F) → (⟨S4x2048x1, .f32⟩ : BufTy).Contents (Elt F) → (⟨S4x2048x1, .f32⟩ : BufTy).Contents (Elt F)),
    unary main_v63 main_v64 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v57 main_v64 main_v65 (mulf : (⟨S4x2048x4096, .f32⟩ : BufTy).Contents (Elt F) → (⟨S4x2048x4096, .f32⟩ : BufTy).Contents (Elt F) → (⟨S4x2048x4096, .f32⟩ : BufTy).Contents (Elt F)),
    unary main_v65 main_v66 ((Host.roundeven) : (⟨S4x2048x4096, .f32⟩ : BufTy).Contents (Elt F) → (⟨S4x2048x4096, .f32⟩ : BufTy).Contents (Elt F)),
    nullary main_cst_24 (constant S_ .f32 0xC3000000#32),
    nullary main_cst_25 (constant S_ .f32 0x42FE0000#32),
    unary main_cst_24 main_call15_v0 ((id) : (⟨S_, .f32⟩ : BufTy).Contents (Elt F) → (⟨S_, .f32⟩ : BufTy).Contents (Elt F)),
    unary main_call15_v0 main_call15_v1 (((broadcastInDim S4x2048x4096 ![] bcast_S_S4x2048x4096)) : (⟨S_, .f32⟩ : BufTy).Contents (Elt F) → (⟨S4x2048x4096, .f32⟩ : BufTy).Contents (Elt F)),
    binary main_call15_v1 main_v66 main_call15_v2 ((maximumf) : (⟨S4x2048x4096, .f32⟩ : BufTy).Contents (Elt F) → (⟨S4x2048x4096, .f32⟩ : BufTy).Contents (Elt F) → (⟨S4x2048x4096, .f32⟩ : BufTy).Contents (Elt F)),
    unary main_cst_25 main_call15_v3 ((id) : (⟨S_, .f32⟩ : BufTy).Contents (Elt F) → (⟨S_, .f32⟩ : BufTy).Contents (Elt F)),
    unary main_call15_v3 main_call15_v4 (((broadcastInDim S4x2048x4096 ![] bcast_S_S4x2048x4096)) : (⟨S_, .f32⟩ : BufTy).Contents (Elt F) → (⟨S4x2048x4096, .f32⟩ : BufTy).Contents (Elt F)),
    binary main_call15_v4 main_call15_v2 main_v67 ((minimumf) : (⟨S4x2048x4096, .f32⟩ : BufTy).Contents (Elt F) → (⟨S4x2048x4096, .f32⟩ : BufTy).Contents (Elt F) → (⟨S4x2048x4096, .f32⟩ : BufTy).Contents (Elt F)),
    unary main_v63 main_v68 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v67 main_v68 main_v69 (Host.divf : (⟨S4x2048x4096, .f32⟩ : BufTy).Contents (Elt F) → (⟨S4x2048x4096, .f32⟩ : BufTy).Contents (Elt F) → (⟨S4x2048x4096, .f32⟩ : BufTy).Contents (Elt F)),
    binary main_v69 main_v57 main_v70 (subf : (⟨S4x2048x4096, .f32⟩ : BufTy).Contents (Elt F) → (⟨S4x2048x4096, .f32⟩ : BufTy).Contents (Elt F) → (⟨S4x2048x4096, .f32⟩ : BufTy).Contents (Elt F)),
    binary main_v57 main_v70 main_v71 (addf : (⟨S4x2048x4096, .f32⟩ : BufTy).Contents (Elt F) → (⟨S4x2048x4096, .f32⟩ : BufTy).Contents (Elt F) → (⟨S4x2048x4096, .f32⟩ : BufTy).Contents (Elt F)),
    unary main_arg3 main_v72 (Host.absf : (⟨S1024x4096, .f32⟩ : BufTy).Contents (Elt F) → (⟨S1024x4096, .f32⟩ : BufTy).Contents (Elt F)),
    nullary main_cst_26 (constant S_ .f32 0x00000000#32),
    binary main_v72 main_cst_26 main_v73 ((fun x v => Host.reduceAdd x v reducesTo_S1024x4096_S_d0_1 h_S_) : (⟨S1024x4096, .f32⟩ : BufTy).Contents (Elt F) → (⟨S_, .f32⟩ : BufTy).Contents (Elt F) → (⟨S_, .f32⟩ : BufTy).Contents (Elt F)),
    nullary main_cst_27 (constant S_ .f32 0x4A800000#32),
    binary main_v73 main_cst_27 main_v74 (Host.divf : (⟨S_, .f32⟩ : BufTy).Contents (Elt F) → (⟨S_, .f32⟩ : BufTy).Contents (Elt F) → (⟨S_, .f32⟩ : BufTy).Contents (Elt F)),
    nullary main_cst_28 (constant S_ .f32 0x3727C5AC#32),
    unary main_cst_28 main_call16_v0 ((id) : (⟨S_, .f32⟩ : BufTy).Contents (Elt F) → (⟨S_, .f32⟩ : BufTy).Contents (Elt F)),
    binary main_call16_v0 main_v74 main_v75 ((maximumf) : (⟨S_, .f32⟩ : BufTy).Contents (Elt F) → (⟨S_, .f32⟩ : BufTy).Contents (Elt F) → (⟨S_, .f32⟩ : BufTy).Contents (Elt F)),
    nullary main_cst_29 (constant S_ .f32 0x3F800000#32),
    binary main_cst_29 main_v75 main_v76 (Host.divf : (⟨S_, .f32⟩ : BufTy).Contents (Elt F) → (⟨S_, .f32⟩ : BufTy).Contents (Elt F) → (⟨S_, .f32⟩ : BufTy).Contents (Elt F)),
    unary main_v76 main_v77 (broadcastInDim S1024x4096 ![] bcast_S_S1024x4096 : (⟨S_, .f32⟩ : BufTy).Contents (Elt F) → (⟨S1024x4096, .f32⟩ : BufTy).Contents (Elt F)),
    binary main_arg3 main_v77 main_v78 (mulf : (⟨S1024x4096, .f32⟩ : BufTy).Contents (Elt F) → (⟨S1024x4096, .f32⟩ : BufTy).Contents (Elt F) → (⟨S1024x4096, .f32⟩ : BufTy).Contents (Elt F)),
    unary main_v78 main_v79 ((Host.roundeven) : (⟨S1024x4096, .f32⟩ : BufTy).Contents (Elt F) → (⟨S1024x4096, .f32⟩ : BufTy).Contents (Elt F)),
    nullary main_cst_30 (constant S_ .f32 0xBF800000#32),
    nullary main_cst_31 (constant S_ .f32 0x3F800000#32),
    unary main_cst_30 main_call18_v0 ((id) : (⟨S_, .f32⟩ : BufTy).Contents (Elt F) → (⟨S_, .f32⟩ : BufTy).Contents (Elt F)),
    unary main_call18_v0 main_call18_v1 (((broadcastInDim S1024x4096 ![] bcast_S_S1024x4096)) : (⟨S_, .f32⟩ : BufTy).Contents (Elt F) → (⟨S1024x4096, .f32⟩ : BufTy).Contents (Elt F)),
    binary main_call18_v1 main_v79 main_call18_v2 ((maximumf) : (⟨S1024x4096, .f32⟩ : BufTy).Contents (Elt F) → (⟨S1024x4096, .f32⟩ : BufTy).Contents (Elt F) → (⟨S1024x4096, .f32⟩ : BufTy).Contents (Elt F)),
    unary main_cst_31 main_call18_v3 ((id) : (⟨S_, .f32⟩ : BufTy).Contents (Elt F) → (⟨S_, .f32⟩ : BufTy).Contents (Elt F)),
    unary main_call18_v3 main_call18_v4 (((broadcastInDim S1024x4096 ![] bcast_S_S1024x4096)) : (⟨S_, .f32⟩ : BufTy).Contents (Elt F) → (⟨S1024x4096, .f32⟩ : BufTy).Contents (Elt F)),
    binary main_call18_v4 main_call18_v2 main_v80 ((minimumf) : (⟨S1024x4096, .f32⟩ : BufTy).Contents (Elt F) → (⟨S1024x4096, .f32⟩ : BufTy).Contents (Elt F) → (⟨S1024x4096, .f32⟩ : BufTy).Contents (Elt F)),
    unary main_v76 main_v81 (broadcastInDim S1024x4096 ![] bcast_S_S1024x4096 : (⟨S_, .f32⟩ : BufTy).Contents (Elt F) → (⟨S1024x4096, .f32⟩ : BufTy).Contents (Elt F)),
    binary main_v80 main_v81 main_v82 (Host.divf : (⟨S1024x4096, .f32⟩ : BufTy).Contents (Elt F) → (⟨S1024x4096, .f32⟩ : BufTy).Contents (Elt F) → (⟨S1024x4096, .f32⟩ : BufTy).Contents (Elt F)),
    binary main_v82 main_arg3 main_v83 (subf : (⟨S1024x4096, .f32⟩ : BufTy).Contents (Elt F) → (⟨S1024x4096, .f32⟩ : BufTy).Contents (Elt F) → (⟨S1024x4096, .f32⟩ : BufTy).Contents (Elt F)),
    binary main_arg3 main_v83 main_v84 (addf : (⟨S1024x4096, .f32⟩ : BufTy).Contents (Elt F) → (⟨S1024x4096, .f32⟩ : BufTy).Contents (Elt F) → (⟨S1024x4096, .f32⟩ : BufTy).Contents (Elt F)),
    binary main_v71 main_v84 main_v85 ((fun l r => Host.dotGeneral dot_S4x2048x4096_S1024x4096_S4x2048x1024_2_1_01_0_n_n none l r) : (⟨S4x2048x4096, .f32⟩ : BufTy).Contents (Elt F) → (⟨S1024x4096, .f32⟩ : BufTy).Contents (Elt F) → (⟨S4x2048x1024, .f32⟩ : BufTy).Contents (Elt F)) ]

set_option maxRecDepth 131072 in
set_option maxHeartbeats 4000000 in
/-- Every typed reference names a buffer of the value's own type: operation by operation the two lists are the same. -/
theorem ops_eq : (ops : List (HloOp τ sig (Elt F))) = opsPlain := rfl

set_option maxRecDepth 131072 in
set_option maxHeartbeats 66400000 in
/-- The run, the result at the last stage's value. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = Cert.ReferenceIdeal.ReadP.val_main_v85 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v85).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => opsPlain) (fun c => (main_eq c).trans (congrArg seq (ops_eq (F := F))))
      (fun _ => (ops_eq (F := F)) ▸ ops_sub) m ρ)

end Cert.ReferenceIdeal.RefRun

end
-- ==== Proof.LibRealE.lean ====
/-
  Extended reals that are real numbers, for proofs at the ideal instance: closure under products, sums and
  magnitudes, the add-back law x + (y - x) = y for a real x and ANY y, that anything clamped between two reals is a
  real, the ideal quotient of a real by a nonzero real, and the logistic function of a real.  Nothing here mentions a
  program or a shape.
-/
import Idealize.ShloMosaic.PureOps.Ideal

noncomputable section

open scoped BigOperators

namespace Cert.LibRealE

open Idealize.ShloMosaic

/-- An extended real that is a real number. -/
def IsR (x : EReal) : Prop := ∃ r : ℝ, x = (r : EReal)

theorem isR_coe (r : ℝ) : IsR (r : EReal) := ⟨r, rfl⟩

/-- The coercion of the reals into the extended reals commutes with the maximum. -/
theorem coe_max' (a b : ℝ) : ((max a b : ℝ) : EReal) = max (a : EReal) (b : EReal) := EReal.coe_strictMono.monotone.map_max
/-- The coercion of the reals into the extended reals commutes with the minimum. -/
theorem coe_min' (a b : ℝ) : ((min a b : ℝ) : EReal) = min (a : EReal) (b : EReal) := EReal.coe_strictMono.monotone.map_min

/-- A product of reals is a real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- A sum of two reals is a real. -/
theorem IsR.add {x y : EReal} (hx : IsR x) (hy : IsR y) : IsR (x + y) := by
  obtain ⟨a, rfl⟩ := hx; obtain ⟨b, rfl⟩ := hy; exact ⟨a + b, (EReal.coe_add a b).symm⟩

/-- A finite sum of reals is a real. -/
theorem IsR.sum {ι : Type} (s : Finset ι) (f : ι → EReal) (hf : ∀ i, IsR (f i)) : IsR (∑ i ∈ s, f i) := by
  classical
  induction s using Finset.induction_on with
  | empty => exact ⟨0, by simp⟩
  | insert a s ha ih => rw [Finset.sum_insert ha]; exact (hf a).add ih

/-- The magnitude max x (-x) of a real is a real. -/
theorem IsR.absMax {x : EReal} (hx : IsR x) : IsR (max x (-x)) := by
  obtain ⟨a, rfl⟩ := hx
  refine ⟨max a (-a), ?_⟩
  rw [← EReal.coe_neg, coe_max']

/-- Adding back what was subtracted: for a real `x`, `x + (y - x) = y` whatever `y` is (infinite `y` included). -/
theorem ste {x : EReal} (hx : IsR x) (y : EReal) : x + (y - x) = y := by
  obtain ⟨r, rfl⟩ := hx
  induction y using EReal.rec with
  | bot => rw [EReal.bot_sub, EReal.add_bot]
  | coe s => rw [← EReal.coe_sub, ← EReal.coe_add]; congr 1; ring
  | top => rw [EReal.top_sub_coe, EReal.coe_add_top]

/-- The ideal quotient of a real by a nonzero real is a real. -/
theorem div_isR {x y : EReal} (hx : IsR x) {b : ℝ} (hy : y = (b : EReal)) (hb : b ≠ 0) : IsR (Ideal.div x y) := by
  obtain ⟨a, rfl⟩ := hx
  subst hy
  rw [Ideal.div_coe hb, ← EReal.coe_mul]
  exact ⟨_, rfl⟩

/-- Anything clamped between two reals is a real. -/
theorem clamp_isR {lo hi : ℝ} (v : EReal) : IsR (min (hi : EReal) (max (lo : EReal) v)) := by
  induction v using EReal.rec with
  | bot => exact ⟨min hi lo, by rw [max_eq_left bot_le, coe_min']⟩
  | coe a => exact ⟨min hi (max lo a), by rw [coe_min', coe_max']⟩
  | top => exact ⟨hi, by rw [max_eq_right le_top, min_eq_left le_top]⟩

/-- The logistic function of a real is a real. -/
theorem logistic_isR {g : EReal} (hg : IsR g) : IsR (Ideal.logistic g) := by
  obtain ⟨a, rfl⟩ := hg
  exact ⟨_, Ideal.logistic_coe (r := a)⟩

end Cert.LibRealE

end
-- ==== Proof.SpecLaws.lean ====
/-
  Laws of the quantized feed-forward block on the extended reals: when its pieces are real numbers, and the
  rearrangements under which the two programs' spellings meet.
-/
import proofs.«171611_j41403484733540_1_alg».proof.Proof.Spec
import proofs.«171611_j41403484733540_1_alg».proof.Proof.LibRealE
import Idealize.ShloMosaic.PureOps.Ideal.Laws

noncomputable section

open scoped BigOperators

namespace Cert.Ffn

open Idealize.ShloMosaic

export Cert.LibRealE (IsR isR_coe coe_max' coe_min' ste div_isR clamp_isR logistic_isR)

/-- The magnitude of a real is a real. -/
theorem isR_absE {x : EReal} (hx : IsR x) : IsR (absE x) := hx.absMax

/-! ## The literals -/

theorem cp1_eq : cp1 = 1 := by unfold cp1; simp [Ideal.ofBits, Ideal.ieee, -EReal.coe_mul] <;> norm_num
theorem czero_eq : czero = 0 := Ideal.ofBits_zero_f32
theorem cm1_eq : cm1 = ((-1 : ℝ) : EReal) := by unfold cm1; simp [Ideal.ofBits, Ideal.ieee, -EReal.coe_mul] <;> norm_num
theorem c127_eq : c127 = ((127 : ℝ) : EReal) := by unfold c127; simp [Ideal.ofBits, Ideal.ieee, -EReal.coe_mul] <;> norm_num
theorem cm128_eq : cm128 = ((-128 : ℝ) : EReal) := by unfold cm128; simp [Ideal.ofBits, Ideal.ieee, -EReal.coe_mul] <;> norm_num
theorem cnum_eq : cnum = ((4194304 : ℝ) : EReal) := by unfold cnum; simp [Ideal.ofBits, Ideal.ieee, -EReal.coe_mul] <;> norm_num
theorem eps_pos : ∃ e : ℝ, 0 < e ∧ eps = (e : EReal) := by
  unfold eps; simp [Ideal.ofBits, Ideal.ieee, -EReal.coe_mul]

/-- The bound below taken on the other side. -/
theorem wscale_comm (tot : EReal) : Ideal.div cp1 (max eps (Ideal.div tot cnum)) = wscale tot := by
  unfold wscale; rw [max_comm]

/-- The bound below taken on the other side. -/
theorem scale8_comm (amax : EReal) : Ideal.div c127 (max eps amax) = scale8 amax := by
  unfold scale8; rw [max_comm]

/-- The logistic function spelt with the float one. -/
theorem logistic_eq (g : EReal) : Ideal.div cp1 (cp1 + Ideal.exp (-g)) = Ideal.logistic g := by
  rw [cp1_eq]; rfl

/-! ## Real pieces -/

/-- A value bounded below by a positive real, not plus infinity: a positive real. -/
theorem max_eps_pos {v : EReal} (hv : v ≠ ⊤) : ∃ b : ℝ, 0 < b ∧ max v eps = (b : EReal) := by
  obtain ⟨e, he, hE⟩ := eps_pos
  rw [hE]
  induction v using EReal.rec with
  | bot => exact ⟨e, he, by simp⟩
  | coe a => exact ⟨max a e, lt_max_of_lt_right he, by rw [coe_max']⟩
  | top => exact absurd rfl hv

/-- A matrix of reals has a real magnitude total. -/
theorem wtot_isR {I : Type} [Fintype I] (w : I → EReal) (hw : ∀ i, IsR (w i)) : IsR (wtot w) := by
  unfold wtot
  rw [czero_eq, zero_add]
  exact Cert.LibRealE.IsR.sum _ _ fun i => isR_absE (hw i)

/-- With a real magnitude total the scale is a nonzero real. -/
theorem wscale_real {tot : EReal} (htot : IsR tot) : ∃ b : ℝ, b ≠ 0 ∧ wscale tot = (b : EReal) := by
  have h1 : IsR (Ideal.div tot cnum) := div_isR htot cnum_eq (by norm_num)
  obtain ⟨a, ha⟩ := h1
  obtain ⟨b, hb, hB⟩ := max_eps_pos (v := Ideal.div tot cnum) (by rw [ha]; exact EReal.coe_ne_top a)
  unfold wscale
  rw [hB, cp1_eq, Ideal.div_coe hb.ne', one_mul]
  exact ⟨1 / b, by positivity, rfl⟩

/-- With a real magnitude total every quantized weight is a real number, whatever the weight. -/
theorem q3_isR (tot w : EReal) (htot : IsR tot) : IsR (q3 (wscale tot) w) := by
  obtain ⟨b, hb, hB⟩ := wscale_real htot
  unfold q3
  rw [hB, cp1_eq, cm1_eq]
  exact div_isR (by simpa using clamp_isR (lo := -1) (hi := 1) _) rfl hb

/-- The largest magnitude of a row of reals is not plus infinity. -/
theorem rowMax_ne_top {K : Type} [Fintype K] (x : K → EReal) (hx : ∀ k, IsR (x k)) : rowMax x ≠ ⊤ := by
  classical
  unfold rowMax
  have hn : ninf ≠ ⊤ := by unfold ninf; simp [Ideal.ofBits, Ideal.ieee]
  induction (Finset.univ : Finset K) using Finset.induction_on with
  | empty => simpa using hn
  | insert a s ha ih =>
    rw [Finset.fold_insert ha]
    obtain ⟨r, hr⟩ := isR_absE (hx a)
    rw [hr]
    intro h
    rcases max_choice ((r : ℝ) : EReal) (Finset.fold max ninf (fun k => absE (x k)) s) with h' | h'
    · rw [h'] at h; exact EReal.coe_ne_top r h
    · rw [h'] at h; exact ih h

/-- The scale of a row of reals is a nonzero real. -/
theorem scale8_real {amax : EReal} (h : amax ≠ ⊤) : ∃ b : ℝ, b ≠ 0 ∧ scale8 amax = (b : EReal) := by
  obtain ⟨b, hb, hB⟩ := max_eps_pos h
  unfold scale8
  rw [hB, c127_eq, Ideal.div_coe hb.ne', ← EReal.coe_mul]
  exact ⟨127 * (1 / b), by positivity, rfl⟩

/-- A row of reals is quantized to reals. -/
theorem actq_isR {K : Type} [Fintype K] (x : K → EReal) (hx : ∀ k, IsR (x k)) (k : K) : IsR (actq x k) := by
  obtain ⟨b, hb, hB⟩ := scale8_real (rowMax_ne_top x hx)
  unfold actq q8
  rw [hB, c127_eq, cm128_eq]
  exact div_isR (clamp_isR (lo := -128) (hi := 127) _) rfl hb

/-- A hidden entry from a real row and real quantized weights is a real number. -/
theorem hrow_isR {K J : Type} [Fintype K] (x : K → EReal) (Wg Wu : J → K → EReal) (hx : ∀ k, IsR (x k))
    (hg : ∀ j k, IsR (Wg j k)) (hu : ∀ j k, IsR (Wu j k)) (j : J) : IsR (hrow x Wg Wu j) := by
  unfold hrow hid
  have h1 : IsR (∑ k, actq x k * Wg j k) := Cert.LibRealE.IsR.sum _ _ fun k => (actq_isR x hx k).mul (hg j k)
  have h2 : IsR (∑ k, actq x k * Wu j k) := Cert.LibRealE.IsR.sum _ _ fun k => (actq_isR x hx k).mul (hu j k)
  exact (h1.mul (logistic_isR h1)).mul h2

end Cert.Ffn

end
-- ==== Proof.LibHostMaxReduce.lean ====
/-
  The host's reduction by maximum over one axis, read at the ideal instance. There the maximum of two floats is the
  maximum of two extended reals, commutative and associative, so a one-operand reduce whose body is a maximum is, at
  each result index, the fold of `max` from the initial value over the coordinates of the reduced axis, in any order.
  First for any shapes and any single axis, the source index named by the library's insertion of a coordinate into
  the result index; then for an array of rank four reduced over its last axis, the indices by their coordinates.
-/
import Idealize.ShloMosaic.PureOps
import Idealize.ShloMosaic.PureOps.Ideal
import Idealize.ShloMosaic.PureOps.Ideal.Laws
import Idealize.ShloMosaic.PureOps.Reduce
import Idealize.ShloMosaic.Lib.ValueIdx

noncomputable section

namespace Cert.LibHostMaxReduce

open Idealize.ShloMosaic Idealize.ShloMosaic.ValueIdx

/-- A reduce by maximum over the one axis `a`, at result index `j`: the fold of `max`, from the initial value's element,
    of the operand over the coordinates `k` of axis `a`, at `j` with `k` inserted on that axis. -/
theorem hostReduce_maximumf_single {s t u : Shape} {a : Fin s.rank} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (fun k => x (h.lift j k)) :=
  Host.reduce_eq_fold_single (FloatOps.maximumf (F := Ideal) (φ := φ)) x init h' h hu j

/-- A reduce by maximum of a rank-four array over its last axis, at (a, b, c): the fold of `max`, from the initial
    value's element, of the entries at (a, b, c, k) over k. -/
theorem hostReduce_maximumf_last4 {n0 n1 n2 n3 : Nat} {u : Shape} {φ : FTy}
    (x : (⟨4, ![n0, n1, n2, n3]⟩ : Shape).Idx → EReal) (init : u.Idx → EReal)
    (h' : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := φ)) x init h' hu (ix3 a b c)
      = (Finset.univ : Finset (Fin n3)).fold max (init (Shape.Idx.first hu)) (fun k => x (ix4 a b c k)) := by
  have h : (⟨4, ![n0, n1, n2, n3]⟩ : Shape).Reduces [3] ⟨3, ![n0, n1, n2]⟩ := ⟨h'.1, Nat.succ_pos 2, h'.2⟩
  refine (hostReduce_maximumf_single x init h' h hu (ix3 a b c)).trans ?_
  show (Finset.univ : Finset (Fin n3)).fold max _ _ = _
  refine congrArg (fun f => (Finset.univ : Finset (Fin n3)).fold max (init (Shape.Idx.first hu)) f) ?_
  funext k
  exact congrArg x (funext fun e => Fin.ext (by
    match e with
    | ⟨0, _⟩ => rfl
    | ⟨1, _⟩ => rfl
    | ⟨2, _⟩ => rfl
    | ⟨3, _⟩ => rfl))

/-- The word of minus infinity denotes the bottom of the extended reals. -/
theorem ofBits_neg_inf_f32 : Ideal.ofBits .f32 0xFF800000#32 = ⊥ := by simp [Ideal.ofBits, Ideal.ieee]

end Cert.LibHostMaxReduce

end
-- ==== Proof.RefAct.lean ====
/-
  The reference's three row quantizations read at an entry: each is the row's own 8-bit quantization, once the
  value added back after the subtraction is a real number.
-/
import proofs.«171611_j41403484733540_1_alg».proof.Proof.RefReadP
import proofs.«171611_j41403484733540_1_alg».proof.Proof.SpecLaws
import proofs.«171611_j41403484733540_1_alg».proof.Proof.LibHostMaxReduce
import Idealize.ShloMosaic.Lib.ValueIdx

noncomputable section

open scoped BigOperators

namespace Cert.ReferenceIdeal.RefAct

open Cert.ReferenceIdeal Cert.ReferenceIdeal.ReadP Idealize.ShloMosaic Idealize.ShloMosaic.ValueIdx Cert.Ffn

/-- A reduce by maximum of a rank-three array over its last axis, at (a, b): the fold of `max`, from the initial
    value's element, of the entries at (a, b, k) over k. -/
theorem hostReduce_maximumf_last3 {n0 n1 n2 : Nat} {u : Shape} {φ : FTy}
    (x : (⟨3, ![n0, n1, n2]⟩ : Shape).Idx → EReal) (init : u.Idx → EReal)
    (h' : (⟨3, ![n0, n1, n2]⟩ : Shape).ReducesTo [2] ⟨2, ![n0, n1]⟩) (hu : 0 < u.numel)
    (a : Fin n0) (b : Fin n1) :
    Host.reduce (FloatOps.maximumf (F := Ideal) (φ := φ)) x init h' hu (ix2 a b)
      = (Finset.univ : Finset (Fin n2)).fold max (init (Shape.Idx.first hu)) (fun k => x (ix3 a b k)) := by
  have h : (⟨3, ![n0, n1, n2]⟩ : Shape).Reduces [2] ⟨2, ![n0, n1]⟩ := ⟨h'.1, Nat.succ_pos 1, h'.2⟩
  refine (Cert.LibHostMaxReduce.hostReduce_maximumf_single x init h' h hu (ix2 a b)).trans ?_
  show (Finset.univ : Finset (Fin n2)).fold max _ _ = _
  refine congrArg (fun f => (Finset.univ : Finset (Fin n2)).fold max (init (Shape.Idx.first hu)) f) ?_
  funext k
  exact congrArg x (funext fun e => Fin.ext (by
    match e with
    | ⟨0, _⟩ => rfl
    | ⟨1, _⟩ => rfl
    | ⟨2, _⟩ => rfl))

/-- The quantization as the reference spells it: the bound below on the other side, the quotient added back to the
    entry after the entry is subtracted. For a real entry this is the row's quantization. -/
theorem chain_eq {K : Type} [Fintype K] (x : K → EReal) (k : K) (hx : IsR (x k)) :
    x k + (Ideal.div (min c127 (max cm128 (rnd (x k * Ideal.div c127 (max eps (rowMax x))))))
        (Ideal.div c127 (max eps (rowMax x))) - x k) = actq x k := by
  rw [ste hx, scale8_comm]; rfl

/-- The first row maximum. -/
theorem v1_eq (x0 : (⟨S4x2048x1024, .f32⟩ : BufTy).Contents (Elt Ideal)) (b : Fin 4) (s : Fin 2048) :
    val_main_v1 (F := Ideal) x0 (ix2 b s) = rowMax (fun k' : Fin 1024 => x0 (ix3 b s k')) := by
  unfold val_main_v1
  rw [hostReduce_maximumf_last3]
  rfl

/-- The first row scale, at the row's one entry of the broadcast array. -/
theorem v5_eq (x0 : (⟨S4x2048x1024, .f32⟩ : BufTy).Contents (Elt Ideal)) (b : Fin 4) (s : Fin 2048) (z : Fin 1) :
    val_main_v5 (F := Ideal) x0 (ix3 b s z)
      = Ideal.div c127 (max eps (rowMax (fun k' : Fin 1024 => x0 (ix3 b s k')))) := by
  rw [val_main_v5_apply, val_main_v4_apply, val_main_cst_1_apply, val_main_v3_apply, val_main_call0_v1_apply,
    val_main_call0_v0_apply, val_main_cst_0_apply, val_main_v2_apply]
  have hi : idx_main_v2 (ix3 b s z) = ix2 b s :=
    funext fun a => Fin.ext (by match a with | ⟨0, _⟩ => rfl | ⟨1, _⟩ => rfl)
  rw [hi, v1_eq]
  rfl

/-- The input quantized row by row (first copy, the gate product's operand). -/
theorem actq_x (x0 : (⟨S4x2048x1024, .f32⟩ : BufTy).Contents (Elt Ideal)) (h0 : ∀ i, IsR (x0 i))
    (b : Fin 4) (s : Fin 2048) (k : Fin 1024) :
    val_main_v13 (F := Ideal) x0 (ix3 b s k) = actq (fun k' : Fin 1024 => x0 (ix3 b s k')) k := by
  rw [val_main_v13_apply, val_main_v12_apply, val_main_v11_apply, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply,
    val_main_v10_apply]
  have h6 : idx_main_v6 (ix3 b s k) = ix3 b s (0 : Fin 1) :=
    funext fun a => Fin.ext (by match a with | ⟨0, _⟩ => rfl | ⟨1, _⟩ => rfl | ⟨2, _⟩ => rfl)
  have h10 : idx_main_v10 (ix3 b s k) = ix3 b s (0 : Fin 1) :=
    funext fun a => Fin.ext (by match a with | ⟨0, _⟩ => rfl | ⟨1, _⟩ => rfl | ⟨2, _⟩ => rfl)
  rw [h6, h10, v5_eq]
  exact chain_eq (fun k' : Fin 1024 => x0 (ix3 b s k')) k (h0 (ix3 b s k))

/-- The second row maximum. -/
theorem v30_eq (x0 : (⟨S4x2048x1024, .f32⟩ : BufTy).Contents (Elt Ideal)) (b : Fin 4) (s : Fin 2048) :
    val_main_v30 (F := Ideal) x0 (ix2 b s) = rowMax (fun k' : Fin 1024 => x0 (ix3 b s k')) := by
  unfold val_main_v30
  rw [hostReduce_maximumf_last3]
  rfl

/-- The second row scale, at the row's one entry of the broadcast array. -/
theorem v34_eq (x0 : (⟨S4x2048x1024, .f32⟩ : BufTy).Contents (Elt Ideal)) (b : Fin 4) (s : Fin 2048) (z : Fin 1) :
    val_main_v34 (F := Ideal) x0 (ix3 b s z)
      = Ideal.div c127 (max eps (rowMax (fun k' : Fin 1024 => x0 (ix3 b s k')))) := by
  rw [val_main_v34_apply, val_main_v33_apply, val_main_cst_12_apply, val_main_v32_apply, val_main_call7_v1_apply,
    val_main_call7_v0_apply, val_main_cst_11_apply, val_main_v31_apply]
  have hi : idx_main_v31 (ix3 b s z) = ix2 b s :=
    funext fun a => Fin.ext (by match a with | ⟨0, _⟩ => rfl | ⟨1, _⟩ => rfl)
  rw [hi, v30_eq]
  rfl

/-- The input quantized row by row (second copy, the up product's operand). -/
theorem actq_x' (x0 : (⟨S4x2048x1024, .f32⟩ : BufTy).Contents (Elt Ideal)) (h0 : ∀ i, IsR (x0 i))
    (b : Fin 4) (s : Fin 2048) (k : Fin 1024) :
    val_main_v42 (F := Ideal) x0 (ix3 b s k) = actq (fun k' : Fin 1024 => x0 (ix3 b s k')) k := by
  rw [val_main_v42_apply, val_main_v41_apply, val_main_v40_apply, val_main_v38_apply, val_main_call9_v4_apply,
    val_main_call9_v3_apply, val_main_cst_14_apply, val_main_call9_v2_apply, val_main_call9_v1_apply,
    val_main_call9_v0_apply, val_main_cst_13_apply, val_main_v37_apply, val_main_v36_apply, val_main_v35_apply,
    val_main_v39_apply]
  have h35 : idx_main_v35 (ix3 b s k) = ix3 b s (0 : Fin 1) :=
    funext fun a => Fin.ext (by match a with | ⟨0, _⟩ => rfl | ⟨1, _⟩ => rfl | ⟨2, _⟩ => rfl)
  have h39 : idx_main_v39 (ix3 b s k) = ix3 b s (0 : Fin 1) :=
    funext fun a => Fin.ext (by match a with | ⟨0, _⟩ => rfl | ⟨1, _⟩ => rfl | ⟨2, _⟩ => rfl)
  rw [h35, h39, v34_eq]
  exact chain_eq (fun k' : Fin 1024 => x0 (ix3 b s k')) k (h0 (ix3 b s k))

/-- The hidden array's row maximum. -/
theorem v59_eq (x0 : (⟨S4x2048x1024, .f32⟩ : BufTy).Contents (Elt Ideal)) (x1 x2 : (⟨S4096x1024, .f32⟩ : BufTy).Contents (Elt Ideal))
    (b : Fin 4) (s : Fin 2048) :
    val_main_v59 (F := Ideal) x0 x1 x2 (ix2 b s)
      = rowMax (fun j' : Fin 4096 => val_main_v57 (F := Ideal) x0 x1 x2 (ix3 b s j')) := by
  unfold val_main_v59 val_main_v58
  generalize val_main_v57 (F := Ideal) x0 x1 x2 = y
  rw [hostReduce_maximumf_last3]
  rfl

/-- The hidden array's row scale, at the row's one entry of the broadcast array. -/
theorem v63_eq (x0 : (⟨S4x2048x1024, .f32⟩ : BufTy).Contents (Elt Ideal)) (x1 x2 : (⟨S4096x1024, .f32⟩ : BufTy).Contents (Elt Ideal))
    (b : Fin 4) (s : Fin 2048) (z : Fin 1) :
    val_main_v63 (F := Ideal) x0 x1 x2 (ix3 b s z)
      = Ideal.div c127 (max eps (rowMax (fun j' : Fin 4096 => val_main_v57 (F := Ideal) x0 x1 x2 (ix3 b s j')))) := by
  rw [val_main_v63_apply, val_main_v62_apply, val_main_cst_23_apply, val_main_v61_apply, val_main_call13_v1_apply,
    val_main_call13_v0_apply, val_main_cst_22_apply, val_main_v60_apply]
  have hi : idx_main_v60 (ix3 b s z) = ix2 b s :=
    funext fun a => Fin.ext (by match a with | ⟨0, _⟩ => rfl | ⟨1, _⟩ => rfl)
  rw [hi, v59_eq]
  generalize val_main_v57 (F := Ideal) x0 x1 x2 = y
  rfl

/-- The hidden array quantized row by row, given that the hidden array is real. -/
theorem actq_h (x0 : (⟨S4x2048x1024, .f32⟩ : BufTy).Contents (Elt Ideal)) (x1 x2 : (⟨S4096x1024, .f32⟩ : BufTy).Contents (Elt Ideal))
    (hh : ∀ i, IsR (val_main_v57 (F := Ideal) x0 x1 x2 i)) (b : Fin 4) (s : Fin 2048) (j : Fin 4096) :
    val_main_v71 (F := Ideal) x0 x1 x2 (ix3 b s j)
      = actq (fun j' : Fin 4096 => val_main_v57 (F := Ideal) x0 x1 x2 (ix3 b s j')) j := by
  rw [val_main_v71_apply, val_main_v70_apply, val_main_v69_apply, val_main_v67_apply, val_main_call15_v4_apply,
    val_main_call15_v3_apply, val_main_cst_25_apply, val_main_call15_v2_apply, val_main_call15_v1_apply,
    val_main_call15_v0_apply, val_main_cst_24_apply, val_main_v66_apply, val_main_v65_apply, val_main_v64_apply,
    val_main_v68_apply]
  have h64 : idx_main_v64 (ix3 b s j) = ix3 b s (0 : Fin 1) :=
    funext fun a => Fin.ext (by match a with | ⟨0, _⟩ => rfl | ⟨1, _⟩ => rfl | ⟨2, _⟩ => rfl)
  have h68 : idx_main_v68 (ix3 b s j) = ix3 b s (0 : Fin 1) :=
    funext fun a => Fin.ext (by match a with | ⟨0, _⟩ => rfl | ⟨1, _⟩ => rfl | ⟨2, _⟩ => rfl)
  rw [h64, h68, v63_eq]
  have hj := hh (ix3 b s j)
  generalize val_main_v57 (F := Ideal) x0 x1 x2 = y at hj ⊢
  exact chain_eq (fun j' : Fin 4096 => y (ix3 b s j')) j hj

end Cert.ReferenceIdeal.RefAct

end
-- ==== Proof.RefValue.lean ====
/-
  The reference's result read at an entry is the quantized feed-forward block of the four argument arrays.
-/
import proofs.«171611_j41403484733540_1_alg».proof.Proof.RefReadP
import proofs.«171611_j41403484733540_1_alg».proof.Proof.RefAct
import proofs.«171611_j41403484733540_1_alg».proof.Proof.SpecLaws
import Idealize.ShloMosaic.Lib.ValueIdx

noncomputable section

open scoped BigOperators

namespace Cert.ReferenceIdeal.RefValue

open Cert.ReferenceIdeal Cert.ReferenceIdeal.ReadP Idealize.ShloMosaic Idealize.ShloMosaic.ValueIdx Cert.Ffn

/-! ## The three quantized weight matrices -/

/-- The gate matrix's scale: one over its mean magnitude, the mean bounded below. -/
theorem scale_gate (x1 : (⟨S4096x1024, .f32⟩ : BufTy).Contents (Elt Ideal)) (j : S_.Idx) :
    val_main_v18 (F := Ideal) x1 j = wscale (wtot (fun i : S4096x1024.Idx => (x1 i : EReal))) := by
  rw [val_main_v18_apply, val_main_v17_apply, val_main_call3_v0_apply, val_main_v16_apply, val_main_v15_apply,
    val_main_cst_7_apply, val_main_cst_6_apply, val_main_cst_5_apply, val_main_cst_4_apply]
  simp only [val_main_v14_apply, Ideal.hostDivf_def, Ideal.maximumf_def, Ideal.ofBits_def, Ideal.hostAbsf_def, Ideal.absf_def]
  exact wscale_comm _

/-- An entry of the gate matrix after quantization: the entry plus (its three-level value minus the entry) is the
    three-level value, the entry being a real number. -/
theorem wq_gate (x1 : (⟨S4096x1024, .f32⟩ : BufTy).Contents (Elt Ideal)) (i : S4096x1024.Idx) (h : IsR (x1 i)) :
    val_main_v26 (F := Ideal) x1 i = q3 (wscale (wtot (fun i : S4096x1024.Idx => (x1 i : EReal)))) (x1 i) := by
  rw [val_main_v26_apply, val_main_v25_apply, val_main_v24_apply, val_main_v23_apply, val_main_v22_apply,
    val_main_call5_v4_apply, val_main_call5_v3_apply, val_main_cst_9_apply, val_main_call5_v2_apply, val_main_call5_v1_apply,
    val_main_call5_v0_apply, val_main_cst_8_apply, val_main_v21_apply, val_main_v20_apply, val_main_v19_apply]
  simp only [scale_gate, Ideal.addf_def, Ideal.subf_def, Ideal.hostDivf_def, Ideal.minimumf_def, Ideal.maximumf_def,
    Ideal.hostUnary_roundeven_def, Ideal.mulf_def, Ideal.ofBits_def]
  exact ste h _

/-- The up matrix's scale: one over its mean magnitude, the mean bounded below. -/
theorem scale_up (x2 : (⟨S4096x1024, .f32⟩ : BufTy).Contents (Elt Ideal)) (j : S_.Idx) :
    val_main_v47 (F := Ideal) x2 j = wscale (wtot (fun i : S4096x1024.Idx => (x2 i : EReal))) := by
  rw [val_main_v47_apply, val_main_v46_apply, val_main_call10_v0_apply, val_main_v45_apply, val_main_v44_apply,
    val_main_cst_18_apply, val_main_cst_17_apply, val_main_cst_16_apply, val_main_cst_15_apply]
  simp only [val_main_v43_apply, Ideal.hostDivf_def, Ideal.maximumf_def, Ideal.ofBits_def, Ideal.hostAbsf_def, Ideal.absf_def]
  exact wscale_comm _

/-- An entry of the up matrix after quantization: the entry plus (its three-level value minus the entry) is the
    three-level value, the entry being a real number. -/
theorem wq_up (x2 : (⟨S4096x1024, .f32⟩ : BufTy).Contents (Elt Ideal)) (i : S4096x1024.Idx) (h : IsR (x2 i)) :
    val_main_v55 (F := Ideal) x2 i = q3 (wscale (wtot (fun i : S4096x1024.Idx => (x2 i : EReal)))) (x2 i) := by
  rw [val_main_v55_apply, val_main_v54_apply, val_main_v53_apply, val_main_v52_apply, val_main_v51_apply,
    val_main_call12_v4_apply, val_main_call12_v3_apply, val_main_cst_20_apply, val_main_call12_v2_apply, val_main_call12_v1_apply,
    val_main_call12_v0_apply, val_main_cst_19_apply, val_main_v50_apply, val_main_v49_apply, val_main_v48_apply]
  simp only [scale_up, Ideal.addf_def, Ideal.subf_def, Ideal.hostDivf_def, Ideal.minimumf_def, Ideal.maximumf_def,
    Ideal.hostUnary_roundeven_def, Ideal.mulf_def, Ideal.ofBits_def]
  exact ste h _

/-- The down matrix's scale: one over its mean magnitude, the mean bounded below. -/
theorem scale_down (x3 : (⟨S1024x4096, .f32⟩ : BufTy).Contents (Elt Ideal)) (j : S_.Idx) :
    val_main_v76 (F := Ideal) x3 j = wscale (wtot (fun i : S1024x4096.Idx => (x3 i : EReal))) := by
  rw [val_main_v76_apply, val_main_v75_apply, val_main_call16_v0_apply, val_main_v74_apply, val_main_v73_apply,
    val_main_cst_29_apply, val_main_cst_28_apply, val_main_cst_27_apply, val_main_cst_26_apply]
  simp only [val_main_v72_apply, Ideal.hostDivf_def, Ideal.maximumf_def, Ideal.ofBits_def, Ideal.hostAbsf_def, Ideal.absf_def]
  exact wscale_comm _

/-- An entry of the down matrix after quantization: the entry plus (its three-level value minus the entry) is the
    three-level value, the entry being a real number. -/
theorem wq_down (x3 : (⟨S1024x4096, .f32⟩ : BufTy).Contents (Elt Ideal)) (i : S1024x4096.Idx) (h : IsR (x3 i)) :
    val_main_v84 (F := Ideal) x3 i = q3 (wscale (wtot (fun i : S1024x4096.Idx => (x3 i : EReal)))) (x3 i) := by
  rw [val_main_v84_apply, val_main_v83_apply, val_main_v82_apply, val_main_v81_apply, val_main_v80_apply,
    val_main_call18_v4_apply, val_main_call18_v3_apply, val_main_cst_31_apply, val_main_call18_v2_apply, val_main_call18_v1_apply,
    val_main_call18_v0_apply, val_main_cst_30_apply, val_main_v79_apply, val_main_v78_apply, val_main_v77_apply]
  simp only [scale_down, Ideal.addf_def, Ideal.subf_def, Ideal.hostDivf_def, Ideal.minimumf_def, Ideal.maximumf_def,
    Ideal.hostUnary_roundeven_def, Ideal.mulf_def, Ideal.ofBits_def]
  exact ste h _

/-! ## The two products, the activation and the hidden row -/

/-- The gate product at (b, s, j): the quantized input row against row j of the quantized gate matrix. -/
theorem prod_gate (x0 : (⟨S4x2048x1024, .f32⟩ : BufTy).Contents (Elt Ideal)) (x1 : (⟨S4096x1024, .f32⟩ : BufTy).Contents (Elt Ideal))
    (h0 : ∀ i, IsR (x0 i)) (h1 : ∀ i, IsR (x1 i)) (b : Fin 4) (s : Fin 2048) (j : Fin 4096) :
    val_main_v27 (F := Ideal) x0 x1 (ix3 b s j)
      = ∑ k : Fin 1024, actq (fun k' : Fin 1024 => x0 (ix3 b s k')) k * q3 (wscale (wtot (fun i : S4096x1024.Idx => (x1 i : EReal)))) (x1 (ix2 j k)) := by
  have el : ∀ k : Fin 1024, lidx_main_v27 (ix3 b s j) k = ix3 b s k := fun k =>
    funext fun a => Fin.ext (by match a with | ⟨0, _⟩ => rfl | ⟨1, _⟩ => rfl | ⟨2, _⟩ => rfl)
  have er : ∀ k : Fin 1024, ridx_main_v27 (ix3 b s j) k = ix2 j k := fun k =>
    funext fun a => Fin.ext (by match a with | ⟨0, _⟩ => rfl | ⟨1, _⟩ => rfl)
  rw [val_main_v27_apply]
  refine Finset.sum_congr rfl fun k _ => ?_
  rw [el k, er k, RefAct.actq_x x0 h0 b s k, wq_gate x1 (ix2 j k) (h1 _)]

/-- The up product at (b, s, j): the quantized input row against row j of the quantized up matrix. -/
theorem prod_up (x0 : (⟨S4x2048x1024, .f32⟩ : BufTy).Contents (Elt Ideal)) (x2 : (⟨S4096x1024, .f32⟩ : BufTy).Contents (Elt Ideal))
    (h0 : ∀ i, IsR (x0 i)) (h2 : ∀ i, IsR (x2 i)) (b : Fin 4) (s : Fin 2048) (j : Fin 4096) :
    val_main_v56 (F := Ideal) x0 x2 (ix3 b s j)
      = ∑ k : Fin 1024, actq (fun k' : Fin 1024 => x0 (ix3 b s k')) k * q3 (wscale (wtot (fun i : S4096x1024.Idx => (x2 i : EReal)))) (x2 (ix2 j k)) := by
  have el : ∀ k : Fin 1024, lidx_main_v56 (ix3 b s j) k = ix3 b s k := fun k =>
    funext fun a => Fin.ext (by match a with | ⟨0, _⟩ => rfl | ⟨1, _⟩ => rfl | ⟨2, _⟩ => rfl)
  have er : ∀ k : Fin 1024, ridx_main_v56 (ix3 b s j) k = ix2 j k := fun k =>
    funext fun a => Fin.ext (by match a with | ⟨0, _⟩ => rfl | ⟨1, _⟩ => rfl)
  rw [val_main_v56_apply]
  refine Finset.sum_congr rfl fun k _ => ?_
  rw [el k, er k, RefAct.actq_x' x0 h0 b s k, wq_up x2 (ix2 j k) (h2 _)]

/-- The activation of the gate product: g times the logistic function of g. -/
theorem silu_eq (x0 : (⟨S4x2048x1024, .f32⟩ : BufTy).Contents (Elt Ideal)) (x1 : (⟨S4096x1024, .f32⟩ : BufTy).Contents (Elt Ideal)) (i : S4x2048x4096.Idx) :
    val_main_v28 (F := Ideal) x0 x1 i
      = val_main_v27 (F := Ideal) x0 x1 i * Ideal.logistic (val_main_v27 (F := Ideal) x0 x1 i) := by
  rw [val_main_v28_apply, val_main_call6_v5_apply, val_main_call6_v4_apply, val_main_call6_cst_0_apply, val_main_call6_v3_apply,
    val_main_call6_v2_apply, val_main_call6_cst_apply, val_main_call6_v1_apply, val_main_call6_v0_apply]
  generalize val_main_v27 (F := Ideal) x0 x1 i = g
  simp only [Ideal.mulf_def, Ideal.hostDivf_def, Ideal.addf_def, Ideal.hostUnary_exp_def, Ideal.hostNegf_def, Ideal.negf_def,
    Ideal.ofBits_def]
  exact congrArg (g * ·) (logistic_eq g)

/-- The hidden array at (b, s, j) is the hidden row of the input row (b, s) and the two quantized matrices. -/
theorem hidden_eq (x0 : (⟨S4x2048x1024, .f32⟩ : BufTy).Contents (Elt Ideal)) (x1 x2 : (⟨S4096x1024, .f32⟩ : BufTy).Contents (Elt Ideal))
    (h0 : ∀ i, IsR (x0 i)) (h1 : ∀ i, IsR (x1 i)) (h2 : ∀ i, IsR (x2 i)) (b : Fin 4) (s : Fin 2048) (j : Fin 4096) :
    val_main_v57 (F := Ideal) x0 x1 x2 (ix3 b s j)
      = hrow (fun k : Fin 1024 => x0 (ix3 b s k)) (fun (j : Fin 4096) (k : Fin 1024) => q3 (wscale (wtot (fun i : S4096x1024.Idx => (x1 i : EReal)))) (x1 (ix2 j k)))
          (fun (j : Fin 4096) (k : Fin 1024) => q3 (wscale (wtot (fun i : S4096x1024.Idx => (x2 i : EReal)))) (x2 (ix2 j k))) j := by
  rw [val_main_v57_apply, silu_eq, prod_gate x0 x1 h0 h1 b s j, prod_up x0 x2 h0 h2 b s j]
  rfl

/-- Every entry of the hidden array is a real number. -/
theorem hidden_isR (x0 : (⟨S4x2048x1024, .f32⟩ : BufTy).Contents (Elt Ideal)) (x1 x2 : (⟨S4096x1024, .f32⟩ : BufTy).Contents (Elt Ideal))
    (h0 : ∀ i, IsR (x0 i)) (h1 : ∀ i, IsR (x1 i)) (h2 : ∀ i, IsR (x2 i)) (i : S4x2048x4096.Idx) :
    IsR (val_main_v57 (F := Ideal) x0 x1 x2 i) := by
  obtain ⟨b, s, j, rfl⟩ : ∃ (b : Fin 4) (s : Fin 2048) (j : Fin 4096), i = ix3 b s j := ⟨i 0, i 1, i 2, eq_ix3 i⟩
  rw [hidden_eq x0 x1 x2 h0 h1 h2 b s j]
  exact hrow_isR _ _ _ (fun k => h0 _) (fun j k => q3_isR _ _ (wtot_isR _ h1)) (fun j k => q3_isR _ _ (wtot_isR _ h2)) j

/-- The hidden array quantized row by row, at (b, s, j). -/
theorem hidden_q (x0 : (⟨S4x2048x1024, .f32⟩ : BufTy).Contents (Elt Ideal)) (x1 x2 : (⟨S4096x1024, .f32⟩ : BufTy).Contents (Elt Ideal))
    (h0 : ∀ i, IsR (x0 i)) (h1 : ∀ i, IsR (x1 i)) (h2 : ∀ i, IsR (x2 i)) (b : Fin 4) (s : Fin 2048) (j : Fin 4096) :
    val_main_v71 (F := Ideal) x0 x1 x2 (ix3 b s j)
      = actq (hrow (fun k : Fin 1024 => x0 (ix3 b s k)) (fun (j : Fin 4096) (k : Fin 1024) => q3 (wscale (wtot (fun i : S4096x1024.Idx => (x1 i : EReal)))) (x1 (ix2 j k)))
          (fun (j : Fin 4096) (k : Fin 1024) => q3 (wscale (wtot (fun i : S4096x1024.Idx => (x2 i : EReal)))) (x2 (ix2 j k)))) j := by
  rw [RefAct.actq_h x0 x1 x2 (hidden_isR x0 x1 x2 h0 h1 h2) b s j]
  exact congrArg (fun f : Fin 4096 → EReal => actq f j) (funext fun j' => hidden_eq x0 x1 x2 h0 h1 h2 b s j')

/-! ## The result -/

/-- The reference's result at (b, s, c), for real argument arrays. -/
theorem ref_eq (x0 : (⟨S4x2048x1024, .f32⟩ : BufTy).Contents (Elt Ideal)) (x1 x2 : (⟨S4096x1024, .f32⟩ : BufTy).Contents (Elt Ideal))
    (x3 : (⟨S1024x4096, .f32⟩ : BufTy).Contents (Elt Ideal))
    (h0 : ∀ i, IsR (x0 i)) (h1 : ∀ i, IsR (x1 i)) (h2 : ∀ i, IsR (x2 i)) (h3 : ∀ i, IsR (x3 i))
    (b : Fin 4) (s : Fin 2048) (c : Fin 1024) :
    val_main_v85 (F := Ideal) x0 x1 x2 x3 (ix3 b s c)
      = G (fun b s k => x0 (ix3 b s k)) (fun j k => x1 (ix2 j k)) (fun j k => x2 (ix2 j k)) (fun c j => x3 (ix2 c j))
          (wtot (fun i : S4096x1024.Idx => (x1 i : EReal))) (wtot (fun i : S4096x1024.Idx => (x2 i : EReal)))
          (wtot (fun i : S1024x4096.Idx => (x3 i : EReal))) b s c := by
  have el : ∀ j : Fin 4096, lidx_main_v85 (ix3 b s c) j = ix3 b s j := fun j =>
    funext fun a => Fin.ext (by match a with | ⟨0, _⟩ => rfl | ⟨1, _⟩ => rfl | ⟨2, _⟩ => rfl)
  have er : ∀ j : Fin 4096, ridx_main_v85 (ix3 b s c) j = ix2 c j := fun j =>
    funext fun a => Fin.ext (by match a with | ⟨0, _⟩ => rfl | ⟨1, _⟩ => rfl)
  rw [val_main_v85_apply]
  unfold G ffnRow
  refine Finset.sum_congr rfl fun j _ => ?_
  rw [el j, er j, hidden_q x0 x1 x2 h0 h1 h2 b s j, wq_down x3 (ix2 c j) (h3 _)]

end Cert.ReferenceIdeal.RefValue

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.PreReal.lean ====
/-
  The precondition read back: when the finiteness predicate of the four argument arrays is all ones, every entry of
  every array is a real number.
-/
import proofs.«171611_j41403484733540_1_alg».proof.Pre_finite_inputs
import proofs.«171611_j41403484733540_1_alg».proof.Proof.LibFiniteAll
import proofs.«171611_j41403484733540_1_alg».proof.Proof.SpecLaws
import Idealize.ShloMosaic.Lib.ValueIdx

noncomputable section

namespace Cert.PreReal

open Idealize.ShloMosaic Cert.Pre_finite_inputs Cert.Ffn

variable [Cert.Pre_finite_inputs.Facts]

/-- The predicate is the conjunction of four tests "every magnitude is below plus infinity", one per array. -/
theorem real_of_pre (a0 : FVec Ideal S4x2048x1024 .f32) (a1 a2 : FVec Ideal S4096x1024 .f32) (a3 : FVec Ideal S1024x4096 .f32)
    (h : Cert.Pre_finite_inputs.fn (F := Ideal) a0 a1 a2 a3 = fun _ => 1#1) :
    (∀ i, IsR (a0 i)) ∧ (∀ i, IsR (a1 i)) ∧ (∀ i, IsR (a2 i)) ∧ (∀ i, IsR (a3 i)) := by
  have h0 := congrFun h ValueIdx.ix0
  dsimp only [Cert.Pre_finite_inputs.fn, Cert.Pre_finite_inputs.fn_part1] at h0
  rw [Cert.LibFiniteAll.andi_apply_eq_one, Cert.LibFiniteAll.andi_apply_eq_one, Cert.LibFiniteAll.andi_apply_eq_one] at h0
  obtain ⟨⟨⟨e0, e1⟩, e2⟩, e3⟩ := h0
  exact ⟨Cert.LibFiniteAll.real_of_all _ a0 _ _ _ _ e0, Cert.LibFiniteAll.real_of_all _ a1 _ _ _ _ e1,
    Cert.LibFiniteAll.real_of_all _ a2 _ _ _ _ e2, Cert.LibFiniteAll.real_of_all _ a3 _ _ _ _ e3⟩

end Cert.PreReal

end
-- ==== Proof.lean ====
/-
  The certificate: the kernel program and its jnp reference compute, on the extended reals and for finite inputs, the
  same quantized feed-forward block.

  Each weight matrix is quantized to three levels with one scale for the whole matrix; each row of activations to 8
  bits with one scale per row; a row of the input goes through the gate and up products, silu and their product, is
  quantized again, and meets the down product (Proof/Spec.lean states this as one function `G` of the four arrays).
  The kernel program computes `G` literally: host operations quantize and transpose the weights, a first launch
  produces the quantized hidden rows block by block, a second launch the down product, a reshape restores the batch
  axes (Proof/KernelValue.lean).  The reference adds each quantized value back onto the value it was subtracted
  from, `v + (q - v)`; for a real `v` that is `q` whatever `q` is, and the values in question are real because the
  inputs are: the entries of the arrays by the precondition, the hidden entries because every quantized value is a
  clamped number over a nonzero real scale (Proof/SpecLaws.lean, Proof/RefValue.lean).  The two maxima that bound a
  scale's divisor below are taken in the opposite order by the two programs, and the logistic function is spelt out
  by the reference; neither changes a value.
  The three frames are the programs' runs with the results dropped; the kernel's idealization rewrote nothing.
-/
import proofs.«171611_j41403484733540_1_alg».proof.Defs
import proofs.«171611_j41403484733540_1_alg».proof.Proof.Gen.Kernel
import proofs.«171611_j41403484733540_1_alg».proof.Proof.Gen.Kernel.Skeleton
import proofs.«171611_j41403484733540_1_alg».proof.Proof.Gen.Kernel.Launch
import proofs.«171611_j41403484733540_1_alg».proof.Proof.Gen.Kernel.Points
import proofs.«171611_j41403484733540_1_alg».proof.Proof.Gen.Kernel.Frame
import proofs.«171611_j41403484733540_1_alg».proof.Proof.Gen.KernelIdeal
import proofs.«171611_j41403484733540_1_alg».proof.Proof.Gen.KernelIdeal.Skeleton
import proofs.«171611_j41403484733540_1_alg».proof.Proof.Gen.KernelIdeal.Launch
import proofs.«171611_j41403484733540_1_alg».proof.Proof.Gen.KernelIdeal.Points
import proofs.«171611_j41403484733540_1_alg».proof.Proof.Gen.KernelIdeal.Frame
import proofs.«171611_j41403484733540_1_alg».proof.Proof.Gen.ReferenceIdeal
import proofs.«171611_j41403484733540_1_alg».proof.Proof.Gen.Pre_finite_inputs
import proofs.«171611_j41403484733540_1_alg».proof.Proof.KernelRun
import proofs.«171611_j41403484733540_1_alg».proof.Proof.KernelValue
import proofs.«171611_j41403484733540_1_alg».proof.Proof.RefRun
import proofs.«171611_j41403484733540_1_alg».proof.Proof.RefValue
import proofs.«171611_j41403484733540_1_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the block `G` of the argument arrays. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v42),
    Cert.KernelIdeal.RunNamed.run_named (F := Ideal) m ρ, ?_⟩
  refine (θ_run Cert.ReferenceIdeal.defs _ _).mono (fun _ h c => ⟨(h c).1.trans ?_, (h c).2⟩)
    (Cert.ReferenceIdeal.RefRun.run m' ρ')
  obtain ⟨r0, r1, r2, r3⟩ := Cert.PreReal.real_of_pre _ _ _ _ (hpre c)
  rw [(hagree c).1, (hagree c).2.1, (hagree c).2.2.1, (hagree c).2.2.2]
  funext i
  obtain ⟨b, s, cc, rfl⟩ : ∃ (b : Fin 4) (s : Fin 2048) (cc : Fin 1024), i = ix3 b s cc := ⟨i 0, i 1, i 2, eq_ix3 i⟩
  refine (Cert.ReferenceIdeal.RefValue.ref_eq _ _ _ _ r0 r1 r2 r3 b s cc).trans ?_
  exact (Cert.KernelIdeal.KernelValue.kernel_eq m ρ c b s cc).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
